-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x8 : Shape := ⟨2, ![2048, 8]⟩
abbrev S64x1536x2048 : Shape := ⟨3, ![64, 1536, 2048]⟩
abbrev S64x2048x768 : Shape := ⟨3, ![64, 2048, 768]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S64x1536x2048 : S_.BroadcastsInDim S64x1536x2048 (![] : Fin 0 → Fin S64x1536x2048.rank)
  reducesTo_S64x1536x2048_S_d0_1_2 : S64x1536x2048.ReducesTo [0, 1, 2] S_
  bcast_S_S64x2048x768 : S_.BroadcastsInDim S64x2048x768 (![] : Fin 0 → Fin S64x2048x768.rank)
  reducesTo_S64x2048x768_S_d0_1_2 : S64x2048x768.ReducesTo [0, 1, 2] S_

variable [Facts]

def fn_part1 {F : FTy → Type} [FloatOps F] (main_v13 : IVec S_ 1) (main_v16 : IVec S64x2048x768 1) : IVec S_ 1 :=
  let main_c_5 : IVec S_ 1 := constantI S_ 1 1#1
  let main_v17 : IVec S_ 1 := (fun x v => Host.reduce IntOp.andi x v reducesTo_S64x2048x768_S_d0_1_2 h_S_) main_v16 main_c_5
  let main_v18 : IVec S_ 1 := andi main_v13 main_v17
  main_v18

def fn {F : FTy → Type} [FloatOps F] (main_arg0 : FVec F S2048x2048 .f32) (main_arg1 : IVec S2048x8 32) (main_arg2 : FVec F S2048x8 .f32) (main_arg3 : FVec F S64x1536x2048 .f32) (main_arg4 : FVec F S64x2048x768 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S64x1536x2048 .f32 := Host.absf main_arg3
  let main_cst_2 : FVec F S_ .f32 := constant S_ .f32 0x7F800000#32
  let main_v10 : FVec F S64x1536x2048 .f32 := broadcastInDim S64x1536x2048 ![] bcast_S_S64x1536x2048 main_cst_2
  let main_v11 : IVec S64x1536x2048 1 := cmpf .olt main_v9 main_v10
  let main_c_3 : IVec S_ 1 := constantI S_ 1 1#1
  let main_v12 : IVec S_ 1 := (fun x v => Host.reduce IntOp.andi x v reducesTo_S64x1536x2048_S_d0_1_2 h_S_) main_v11 main_c_3
  let main_v13 : IVec S_ 1 := andi main_v8 main_v12
  let main_v14 : FVec F S64x2048x768 .f32 := Host.absf main_arg4
  let main_cst_4 : FVec F S_ .f32 := constant S_ .f32 0x7F800000#32
  let main_v15 : FVec F S64x2048x768 .f32 := broadcastInDim S64x2048x768 ![] bcast_S_S64x2048x768 main_cst_4
  let main_v16 : IVec S64x2048x768 1 := cmpf .olt main_v14 main_v15
  fn_part1 (F := F) main_v13 main_v16
-- ==== Kernel.lean ====
abbrev S2048x2048 : Shape := ⟨2, ![2048, 2048]⟩
abbrev S2048x8 : Shape := ⟨2, ![2048, 8]⟩
abbrev S64x1536x2048 : Shape := ⟨3, ![64, 1536, 2048]⟩
abbrev S64x2048x768 : Shape := ⟨3, ![64, 2048, 768]⟩
abbrev S16384 : Shape := ⟨1, ![16384]⟩
abbrev S_ : Shape := ⟨0, ![]⟩
abbrev S16384x1 : Shape := ⟨2, ![16384, 1]⟩
abbrev S16384x2048 : Shape := ⟨2, ![16384, 2048]⟩
abbrev S64x256x2048 : Shape := ⟨3, ![64, 256, 2048]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 63
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x8, .i32⟩
  | .hbm, ⟨2, _⟩ => ⟨S2048x8, .f32⟩
  | .hbm, ⟨3, _⟩ => ⟨S64x1536x2048, .f32⟩
  | .hbm, ⟨4, _⟩ => ⟨S64x2048x768, .f32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x2048, .f32⟩
  | .hbm, ⟨36, _⟩ => ⟨S64x256x2048, .f32⟩
  | .hbm, ⟨37, _⟩ => ⟨S16384, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384, .f32⟩
  | .hbm, ⟨47, _⟩ => ⟨S64x256x2048, .f32⟩
  | .hbm, ⟨48, _⟩ => ⟨S16384x2048, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S2048x2048, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 3], ![false, false]⟩

def k0_cond2 (i : grid0.Coords) : BitVec 1 :=
  let arg1 : BitVec 32 := BitVec.ofNat 32 (i 1).val
  let c2_i32 : BitVec 32 := 2#32
  let v27 : BitVec 1 := Scalar.cmpi .eq arg1 c2_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048x8_S16384 : S2048x8.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S64x256x2048 : S16384x2048.ShapeCasts S64x256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S256x2048_S1x256x2048 : S256x2048.ShapeCasts S1x256x2048
  shapeCasts_S64x256x2048_S16384x2048 : S64x256x2048.ShapeCasts S16384x2048
  bcast_S16384x1_S16384x2048_0_1 : S16384x1.BroadcastsInDim S16384x2048 (![0, 1] : Fin 2 → Fin S16384x2048.rank)
  bcast_S_S2048x2048 : S_.BroadcastsInDim S2048x2048 (![] : Fin 0 → Fin S2048x2048.rank)
  gather_S2048x2048_S16384x1_S16384x2048_1_0_n_n_0_1_12048_wf : GatherDims.WF S2048x2048 S16384x1 S16384x2048 [1] [0] [] [0] [] 1 ![1, 2048]
  gather_S16384_S16384x1_S16384_n_0_n_n_0_1_1_wf : GatherDims.WF S16384 S16384x1 S16384 [] [0] [] [0] [] 1 ![1]
  dot_S256x2048_S256x2048_S256x256_1_1_0_0_n_n_wf : DotDims.WF S256x2048 S256x2048 S256x256 [1] [1] [0] [0] [] []
  dot_S256x256_S2048x256_S256x2048_1_1_0_0_n_n_wf : DotDims.WF S256x256 S2048x256 S256x2048 [1] [1] [0] [0] [] []
  scatter_S2048x2048_S16384x1_S16384x2048_1_0_0_1_wf : ScatterDims.WF S2048x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S64x1536x2048.size a
  hwx0_1 : ∀ i : grid0.Coords, EltTy.bits .f32 = 32 ∨ (Rect.block (s := S64x1536x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S64x1536x2048.size a
  hwx0_2 : ∀ i : grid0.Coords, EltTy.bits .f32 = 32 ∨ (Rect.block (s := S64x1536x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S64x2048x768.size a
  hwx0_3 : ∀ i : grid0.Coords, EltTy.bits .f32 = 32 ∨ (Rect.block (s := S64x2048x768) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x256x2048.size a
  hwx0_4 : ∀ i : grid0.Coords, EltTy.bits .f32 = 32 ∨ (Rect.block (s := S64x256x2048) S1x256x2048.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S2048x2048_S16384x1_S16384x2048_1_0_n_n_0_1_12048 : GatherDims S2048x2048 S16384x1 S16384x2048 where
  offsetDims := [1]
  collapsedSliceDims := [0]
  operandBatchingDims := []
  startIndicesBatchingDims := []
  startIndexMap := [0]
  indexVectorDim := 1
  sliceSizes := ![1, 2048]
  wf := gather_S2048x2048_S16384x1_S16384x2048_1_0_n_n_0_1_12048_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def scatter_S2048x2048_S16384x1_S16384x2048_1_0_0_1 : ScatterDims S2048x2048 S16384x1 S16384x2048 where
  updateWindowDims := [1]
  insertedWindowDims := [0]
  scatterDimsToOperandDims := [0]
  indexVectorDim := 1
  wf := scatter_S2048x2048_S16384x1_S16384x2048_1_0_0_1_wf

abbrev win0_0 : Pipeline.Window sig grid0 :=
  Pipeline.Window.ofSpec (Memref.whole main_v10) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048x8 : Shape := ⟨2, ![2048, 8]⟩
abbrev S64x1536x2048 : Shape := ⟨3, ![64, 1536, 2048]⟩
abbrev S64x2048x768 : Shape := ⟨3, ![64, 2048, 768]⟩
abbrev S16384 : Shape := ⟨1, ![16384]⟩
abbrev S_ : Shape := ⟨0, ![]⟩
abbrev S16384x1 : Shape := ⟨2, ![16384, 1]⟩
abbrev S16384x2048 : Shape := ⟨2, ![16384, 2048]⟩
abbrev S64x256x2048 : Shape := ⟨3, ![64, 256, 2048]⟩
abbrev S64x256x1536 : Shape := ⟨3, ![64, 256, 1536]⟩
abbrev S64x256x768 : Shape := ⟨3, ![64, 256, 768]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8, .i32⟩
  | .hbm, ⟨2, _⟩ => ⟨S2048x8, .f32⟩
  | .hbm, ⟨3, _⟩ => ⟨S64x1536x2048, .f32⟩
  | .hbm, ⟨4, _⟩ => ⟨S64x2048x768, .f32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x2048, .f32⟩
  | .hbm, ⟨36, _⟩ => ⟨S64x256x2048, .f32⟩
  | .hbm, ⟨37, _⟩ => ⟨S64x256x1536, .f32⟩
  | .hbm, ⟨38, _⟩ => ⟨S64x256x768, .f32⟩
  | .hbm, ⟨39, _⟩ => ⟨S64x256x768, .f32⟩
  | .hbm, ⟨40, _⟩ => ⟨S64x256x768, .f32⟩
  | .hbm, ⟨41, _⟩ => ⟨S64x256x768, .f32⟩
  | .hbm, ⟨42, _⟩ => ⟨S_, .f32⟩
  | .hbm, ⟨43, _⟩ => ⟨S64x256x768, .f32⟩
  | .hbm, ⟨44, _⟩ => ⟨S64x256x768, .f32⟩
  | .hbm, ⟨45, _⟩ => ⟨S_, .f32⟩
  | .hbm, ⟨46, _⟩ => ⟨S64x256x768, .f32⟩
  | .hbm, ⟨47, _⟩ => ⟨S64x256x768, .f32⟩
  | .hbm, ⟨48, _⟩ => ⟨S64x256x768, .f32⟩
  | .hbm, ⟨49, _⟩ => ⟨S64x256x768, .f32⟩
  | .hbm, ⟨50, _⟩ => ⟨S64x256x2048, .f32⟩
  | .hbm, ⟨51, _⟩ => ⟨S16384, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384, .f32⟩
  | .hbm, ⟨61, _⟩ => ⟨S16384x2048, .f32⟩
  | .hbm, ⟨62, _⟩ => ⟨S16384x1, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S2048x2048, .f32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_2 : Ref sig .tc := ⟨.hbm, 52, rfl⟩
abbrev main_v18 : Ref sig .tc := ⟨.hbm, 53, rfl⟩
abbrev main_v19 : Ref sig .tc := ⟨.hbm, 54, rfl⟩
abbrev main_c_3 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_c_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩

abbrev nD : Nat := 1
abbrev τ : Topo := Topo.v7x

variable {F : FTy → Type} [FloatOps F]

class Facts₀ : Prop where
  shapeCasts_S2048x8_S16384 : S2048x8.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S64x256x2048 : S16384x2048.ShapeCasts S64x256x2048
  slices_S64x256x1536_S64x256x768_0_0_0 : S64x256x1536.Slices ![0, 0, 0] S64x256x768
  slices_S64x256x1536_S64x256x768_0_0_768 : S64x256x1536.Slices ![0, 0, 768] S64x256x768
  bcast_S_S64x256x768 : S_.BroadcastsInDim S64x256x768 (![] : Fin 0 → Fin S64x256x768.rank)
  shapeCasts_S64x256x2048_S16384x2048 : S64x256x2048.ShapeCasts S16384x2048
  bcast_S16384x1_S16384x2048_0_1 : S16384x1.BroadcastsInDim S16384x2048 (![0, 1] : Fin 2 → Fin S16384x2048.rank)
  bcast_S_S2048x2048 : S_.BroadcastsInDim S2048x2048 (![] : Fin 0 → Fin S2048x2048.rank)
  gather_S2048x2048_S16384x1_S16384x2048_1_0_n_n_0_1_12048_wf : GatherDims.WF S2048x2048 S16384x1 S16384x2048 [1] [0] [] [0] [] 1 ![1, 2048]
  dot_S64x256x2048_S64x1536x2048_S64x256x1536_2_2_1_1_0_0_wf : DotDims.WF S64x256x2048 S64x1536x2048 S64x256x1536 [2] [2] [1] [1] [0] [0]
  dot_S64x256x768_S64x2048x768_S64x256x2048_2_2_1_1_0_0_wf : DotDims.WF S64x256x768 S64x2048x768 S64x256x2048 [2] [2] [1] [1] [0] [0]
  gather_S16384_S16384x1_S16384_n_0_n_n_0_1_1_wf : GatherDims.WF S16384 S16384x1 S16384 [] [0] [] [0] [] 1 ![1]
  scatter_S2048x2048_S16384x1_S16384x2048_1_0_0_1_wf : ScatterDims.WF S2048x2048 S16384x1 S16384x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S2048x2048_S16384x1_S16384x2048_1_0_n_n_0_1_12048 : GatherDims S2048x2048 S16384x1 S16384x2048 where
  offsetDims := [1]
  collapsedSliceDims := [0]
  operandBatchingDims := []
  startIndicesBatchingDims := []
  startIndexMap := [0]
  indexVectorDim := 1
  sliceSizes := ![1, 2048]
  wf := gather_S2048x2048_S16384x1_S16384x2048_1_0_n_n_0_1_12048_wf
def dot_S64x256x2048_S64x1536x2048_S64x256x1536_2_2_1_1_0_0 : DotDims S64x256x2048 S64x1536x2048 S64x256x1536 where
  lhsContracting := [2]
  rhsContracting := [2]
  lhsNonContracting := [1]
  rhsNonContracting := [1]
  lhsBatch := [0]
  rhsBatch := [0]
  wf := dot_S64x256x2048_S64x1536x2048_S64x256x1536_2_2_1_1_0_0_wf
def dot_S64x256x768_S64x2048x768_S64x256x2048_2_2_1_1_0_0 : DotDims S64x256x768 S64x2048x768 S64x256x2048 where
  lhsContracting := [2]
  rhsContracting := [2]
  lhsNonContracting := [1]
  rhsNonContracting := [1]
  lhsBatch := [0]
  rhsBatch := [0]
  wf := dot_S64x256x768_S64x2048x768_S64x256x2048_2_2_1_1_0_0_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S2048x2048_S16384x1_S16384x2048_1_0_0_1 : ScatterDims S2048x2048 S16384x1 S16384x2048 where
  updateWindowDims := [1]
  insertedWindowDims := [0]
  scatterDimsToOperandDims := [0]
  indexVectorDim := 1
  wf := scatter_S2048x2048_S16384x1_S16384x2048_1_0_0_1_wf

class Facts : Prop extends Facts₀ where

variable [Facts]
-- ==== Proof.KbBase.lean ====
/-
  The launch side of the expert kernel's frame, for any float instance.

  @main is five stretches of host operations (the index array flattened, its stable argsort, the constant 8, the
  floor division of the sorted positions by 8, and the gathers of token rows and routing weights), then ONE kernel
  region on a grid of 64 experts × 3 tiles of the intermediate axis, then fifteen more host operations (the
  weighting and the scatter-add). The region's body has three control cases, decided by the tile coordinate alone:
  at tile 0 the accumulator is first overwritten with zeros, at every tile the tile's partial product is added to
  it, at tile 2 it is copied into the output block. This module states what the cases share: the buffers' contents
  when the region is entered, each input window's block at a grid point, the two branch conditions in closed form
  (point t has tile coordinate t mod 3), and where the output window is idle.
-/
import proofs.«175903_j26096221290603_1_alg».proof.Proof.Gen.Kernel.Launch
import proofs.«175903_j26096221290603_1_alg».proof.Proof.Gen.Kernel.Skeleton
import proofs.«175903_j26096221290603_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) := [hostOps0, hostOps0_1, hostOps0_2, hostOps0_3, hostOps0_4]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the later host operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that
    does not fetch it has not moved its block index), for any proof data whose array is the region-entry contents
    and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the first conditional (the accumulator is reset), from the grid coordinates. -/
abbrev condReset (i : grid0.Coords) : Prop := (Scalar.cmpi .ne (Scalar.extui (Scalar.cmpi .eq (BitVec.ofNat 32 (i 1).val) 0#32)) 0#32) = 1#1
/-- It holds at the points ≡ 0 (mod 3): tile 0 of each expert. -/
theorem hcondReset : ∀ t : Fin cfg0.N, condReset (grid0.coords t) ↔ t.val % 3 = 0 :=
  (by decide +kernel : ∀ t : Fin grid0.N, condReset (grid0.coords t) ↔ t.val % 3 = 0)

/-- The condition of the second conditional (the accumulator is copied out). -/
abbrev condOut (i : grid0.Coords) : Prop := k0_cond2 i = 1#1
/-- It holds at the points ≡ 2 (mod 3): the last tile of each expert. -/
theorem hcondOut : ∀ t : Fin cfg0.N, condOut (grid0.coords t) ↔ t.val % 3 = 2 :=
  (by decide +kernel : ∀ t : Fin grid0.N, condOut (grid0.coords t) ↔ t.val % 3 = 2)

/-! ## Where the output window is idle -/

theorem idleAt_out : ∀ t : Fin cfg0.N, ¬condOut (grid0.coords t) → cfg0.idle 4 (grid0.coords t) = true := by decide +kernel
theorem noFlush_out : ∀ t : Fin cfg0.N, ¬condOut (grid0.coords t) → (cfg0.win 4).flush t = false := by decide +kernel
theorem liveAt_out : ∀ t : Fin cfg0.N, condOut (grid0.coords t) → cfg0.idle 4 (grid0.coords t) = false := by decide +kernel

/-! ## The staging and scratch memrefs at a point -/

abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)
/-- The accumulator: a whole scoped buffer of the kernel's own, carried from point to point. -/
abbrev accM : Memref sig .tc .vmem S256x2048 .f32 := Memref.whole cc0_scratch0
abbrev accV : View sig .tc .vmem S256x2048 .f32 := (accM).view
/-- One staging buffer of the output window, through which its contents are stated. -/
abbrev outV : View sig .tc .vmem S1x256x2048 .f32 := (Memref.whole cc0_stg4_0 : Memref sig .tc .vmem S1x256x2048 .f32).view

/-- The scoped rest and the generator register, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KbRunA.lean ====
/-
  The body's run at a point of tile 0 that is not the last tile (the accumulator is reset, nothing is copied out): on whole
  staging buffers holding the four input blocks, the output buffer at any contents (handed back untouched) and the
  accumulator at any contents, the body runs to the end, the inputs as they were and the accumulator overwritten by
  its two stores (zeros, then zeros plus the tile's partial product). The list of what the stores wrote is found by
  running the body.
-/
import proofs.«175903_j26096221290603_1_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i)
    (x0 : Vec F S1x256x2048 .f32) (x1 : Vec F S1x256x2048 .f32) (x2 : Vec F S1x256x2048 .f32) (x3 : Vec F S1x2048x256 .f32) :
    { LS : List (View.Piece (Elt F) S256x2048 .f32) //
      ∀ (xi4 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KbRunB.lean ====
/-
  The body's run at a point of tile 1 (no reset, nothing copied out): the accumulator, holding what the point before
  left, is overwritten by its one store (itself plus the tile's partial product); the inputs and the output buffer
  are handed back as found.
-/
import proofs.«175903_j26096221290603_1_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i)
    (x0 : Vec F S1x256x2048 .f32) (x1 : Vec F S1x256x2048 .f32) (x2 : Vec F S1x256x2048 .f32) (x3 : Vec F S1x2048x256 .f32) (xs : Vec F S256x2048 .f32) :
    { LS : List (View.Piece (Elt F) S256x2048 .f32) //
      ∀ (xi4 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KbRunC.lean ====
/-
  The body's run at a point of the last tile (no reset, the accumulator copied out): the accumulator is overwritten by its
  one store (itself plus the tile's partial product) and the output buffer, at any contents before, by the copy of
  that sum.
-/
import proofs.«175903_j26096221290603_1_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runOut (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i)
    (x0 : Vec F S1x256x2048 .f32) (x1 : Vec F S1x256x2048 .f32) (x2 : Vec F S1x256x2048 .f32) (x3 : Vec F S1x2048x256 .f32) (xs : Vec F S256x2048 .f32) :
    Σ' (L4 : List (View.Piece (Elt F) S1x256x2048 .f32)), { LS : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KbFrame.lean ====
/-
  What the accumulator and the output block hold after each grid point, the proof data of the pipeline, and the body
  obligation at every point.

  Grid point t is expert t / 3, tile t mod 3. After a point of tile 0 the accumulator holds what that case's two
  stores left (zeros plus the tile's product); after a point of tile 1 or 2, what the one store left over the
  contents the point before left; after a point of tile 2 the output's staging buffer holds the copy of the
  accumulator, and only there is it written back. Between points the region invariant is the accumulator at those
  named contents (at anything before the first point).
-/
import proofs.«175903_j26096221290603_1_alg».proof.Proof.KbRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the list of its stores -/

def accReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i) (x0 : Vec F S1x256x2048 .f32) (x1 : Vec F S1x256x2048 .f32) (x2 : Vec F S1x256x2048 .f32) (x3 : Vec F S1x2048x256 .f32) : Vec F S256x2048 .f32 :=
  accV.read (Elt F) (accV.writes (Elt F) accV.junk (runReset c i arg2 harg2 arg3 harg3 arg4 harg4 arg5 harg5 arg6 harg6 arg7 harg7 hc0 hc1 x0 x1 x2 x3).1)

theorem coverReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i) (x0 : Vec F S1x256x2048 .f32) (x1 : Vec F S1x256x2048 .f32) (x2 : Vec F S1x256x2048 .f32) (x3 : Vec F S1x2048x256 .f32) (y : S256x2048.Idx) :
    ∃ pc ∈ (runReset c i arg2 harg2 arg3 harg3 arg4 harg4 arg5 harg5 arg6 harg6 arg7 harg7 hc0 hc1 x0 x1 x2 x3).1, y ∈ pc.1.set :=
  View.cover_of_tiledL (runReset c i arg2 harg2 arg3 harg3 arg4 harg4 arg5 harg5 arg6 harg6 arg7 harg7 hc0 hc1 x0 x1 x2 x3).1 S256x2048.size (by sl_kernel_rfl) y

def accAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i) (x0 : Vec F S1x256x2048 .f32) (x1 : Vec F S1x256x2048 .f32) (x2 : Vec F S1x256x2048 .f32) (x3 : Vec F S1x2048x256 .f32) (xs : Vec F S256x2048 .f32) : Vec F S256x2048 .f32 :=
  accV.read (Elt F) (accV.writes (Elt F) accV.junk (runAdd c i arg2 harg2 arg3 harg3 arg4 harg4 arg5 harg5 arg6 harg6 arg7 harg7 hc0 hc1 x0 x1 x2 x3 xs).1)

theorem coverAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i) (x0 : Vec F S1x256x2048 .f32) (x1 : Vec F S1x256x2048 .f32) (x2 : Vec F S1x256x2048 .f32) (x3 : Vec F S1x2048x256 .f32) (xs : Vec F S256x2048 .f32) (y : S256x2048.Idx) :
    ∃ pc ∈ (runAdd c i arg2 harg2 arg3 harg3 arg4 harg4 arg5 harg5 arg6 harg6 arg7 harg7 hc0 hc1 x0 x1 x2 x3 xs).1, y ∈ pc.1.set :=
  View.cover_of_tiledL (runAdd c i arg2 harg2 arg3 harg3 arg4 harg4 arg5 harg5 arg6 harg6 arg7 harg7 hc0 hc1 x0 x1 x2 x3 xs).1 S256x2048.size (by sl_kernel_rfl) y

def accLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) : Vec F S256x2048 .f32 :=
  accV.read (Elt F) (accV.writes (Elt F) accV.junk (runOut c i arg2 harg2 arg3 harg3 arg4 harg4 arg5 harg5 arg6 harg6 arg7 harg7 hc0 hc1 x0 x1 x2 x3 xs).2.1)

theorem coverLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) (y : S256x2048.Idx) :
    ∃ pc ∈ (runOut c i arg2 harg2 arg3 harg3 arg4 harg4 arg5 harg5 arg6 harg6 arg7 harg7 hc0 hc1 x0 x1 x2 x3 xs).2.1, y ∈ pc.1.set :=
  View.cover_of_tiledL (runOut c i arg2 harg2 arg3 harg3 arg4 harg4 arg5 harg5 arg6 harg6 arg7 harg7 hc0 hc1 x0 x1 x2 x3 xs).2.1 S256x2048.size (by sl_kernel_rfl) y

def outLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) : Vec F S1x256x2048 .f32 :=
  outV.read (Elt F) (outV.writes (Elt F) outV.junk (runOut c i arg2 harg2 arg3 harg3 arg4 harg4 arg5 harg5 arg6 harg6 arg7 harg7 hc0 hc1 x0 x1 x2 x3 xs).1)

theorem coverOutLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) (y : S1x256x2048.Idx) :
    ∃ pc ∈ (runOut c i arg2 harg2 arg3 harg3 arg4 harg4 arg5 harg5 arg6 harg6 arg7 harg7 hc0 hc1 x0 x1 x2 x3 xs).1, y ∈ pc.1.set :=
  View.cover_of_tiledL (runOut c i arg2 harg2 arg3 harg3 arg4 harg4 arg5 harg5 arg6 harg6 arg7 harg7 hc0 hc1 x0 x1 x2 x3 xs).1 S1x256x2048.size (by sl_kernel_rfl) y

/-- At a point that stores nothing into the output block the proof data's entry for it is a placeholder nothing reads. -/
def outIdle : Vec F S1x256x2048 .f32 := outV.read (Elt F) (outV.writes (Elt F) outV.junk [])

/-! ## Point by point -/

/-- What the output's staging buffer (first component) and the accumulator (second) hold after the body at point `n`. -/
def outsAt (c : Dev nD) : (n : ℕ) → n < cfg0.N → Vec F S1x256x2048 .f32 × Vec F S256x2048 .f32
  | 0, hn => (outIdle, accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((hcondReset ⟨0, hn⟩).mpr (Nat.zero_mod _)) (fun h => (fun h => by (try dsimp only at h); omega) ((hcondOut ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 3 = 0 then
      (outIdle, accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((hcondReset ⟨n + 1, hn⟩).mpr h0) (fun h => (fun h => by (try dsimp only at h); omega) ((hcondOut ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 3 = 2 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) ((hcondOut ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) ((hcondOut ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outIdle, accAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) (fun h => h1 ((hcondOut ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_reset (c : Dev nD) (t : Fin cfg0.N) (h0 : t.val % 3 = 0) (hc1 : ¬condOut (grid0.coords t)) :
    outsAt m c t.val t.isLt = (outIdle, accReset c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)) := by
  obtain ⟨n, hn⟩ := t
  cases n with
  | zero => exact rfl
  | succ n => exact (dif_pos h0).trans rfl

theorem outsAt_add (c : Dev nD) (t : Fin cfg0.N) (h0 : ¬t.val % 3 = 0) (h1 : ¬t.val % 3 = 2) :
    outsAt m c t.val t.isLt = (outIdle, accAdd c (grid0.coords t) (ms0 t) (hs0 t) (ms1 t) (hs1 t) (ms2 t) (hs2 t) (ms3 t) (hs3 t) (ms4 t) (hs4 t) accM (Memref.isWhole_whole _) (fun h => h0 ((hcondReset t).mp h)) (fun h => h1 ((hcondOut t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 3 = 0) (h1 : t.val % 3 = 2) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((hcondReset t).mp h)) ((hcondOut t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((hcondReset t).mp h)) ((hcondOut t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The region invariant before position `n`: before the first point the accumulator at anything, afterwards at what
    the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) accM fullShare ((outsAt m c n hn).2) := rfl

theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-! ## The pipeline's proof data -/

/-- The proof data on core `c`: the arrays as the region finds them; after the body each input's buffer at its block and
    the output's at `outsAt`; the invariant `PhiS`; nothing owed. The stacked gate/up array is read through two
    windows, each holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the tile coordinate says which case the point is in; the
    invariant hands the body the accumulator at what the point before left (at anything at the first point) and takes
    it back at this point's contents; the output's buffer is handed back untouched except at the last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 3 = 0
  ·
    have hc0 : condReset (grid0.coords t) := (hcondReset t).mpr h0
    have hc1 : ¬condOut (grid0.coords t) := fun h => by have := (hcondOut t).mp h; omega
    rw [show (dats m 0 c).leavesExact 0 t = owns (c : Thread nD τ) (ms0 t) fullShare ((dats m 0 c).after 0 t) from by
      unfold Dat.leavesExact; rw [show cfg0.idle 0 (cfg0.grid.coords t) = false from rfl], after0]
    rw [show (dats m 0 c).leavesExact 1 t = owns (c : Thread nD τ) (ms1 t) fullShare ((dats m 0 c).after 1 t) from by
      unfold Dat.leavesExact; rw [show cfg0.idle 1 (cfg0.grid.coords t) = false from rfl], after1]
    rw [show (dats m 0 c).leavesExact 2 t = owns (c : Thread nD τ) (ms2 t) fullShare ((dats m 0 c).after 2 t) from by
      unfold Dat.leavesExact; rw [show cfg0.idle 2 (cfg0.grid.coords t) = false from rfl], after2]
    rw [show (dats m 0 c).leavesExact 3 t = owns (c : Thread nD τ) (ms3 t) fullShare ((dats m 0 c).after 3 t) from by
      unfold Dat.leavesExact; rw [show cfg0.idle 3 (cfg0.grid.coords t) = false from rfl], after3]
    rw [Dat.leavesExact_idle (dats m 0 c) 4 t (idleAt_out t hc1) (noFlush_out t hc1)]
    rw [outsAt_reset m c t h0 hc1]
    unfold accReset; (try dsimp only)
    have hΦ : (dats m 0 c).Φ t.castSucc ⊢ (iprop(∃ d, owns (c : Thread nD τ) accM fullShare d) : sProp 𝕄) := by
      rw [PhiS_castSucc m c t]
      by_cases hz : t.val = 0
      · rw [PhiS_zero m c _ _ hz, scopedRest_acc]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS := hΦ $$ HS
    iapply ((runReset c (grid0.coords t) _ _ _ _ _ _ _ _ _ _ _ _ hc0 hc1 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (coverReset c _ _ _ _ _ _ _ _ _ _ _ _ _ hc0 hc1 _ _ _ _)
    isplitl [Ho]; · iexact Ho
    isplitl [H0]; · iexact H0
    isplitl [H1]; · iexact H1
    isplitl [H2]; · iexact H2
    isplitl [H3]; · iexact H3
    iexists _; iexact H4
  · by_cases h1 : t.val % 3 = 2
    ·
      have hc0 : ¬condReset (grid0.coords t) := fun h => h0 ((hcondReset t).mp h)
      have hc1 : condOut (grid0.coords t) := (hcondOut t).mpr h1
      have hz : t.val ≠ 0 := by omega
      rw [show (dats m 0 c).leavesExact 0 t = owns (c : Thread nD τ) (ms0 t) fullShare ((dats m 0 c).after 0 t) from by
        unfold Dat.leavesExact; rw [show cfg0.idle 0 (cfg0.grid.coords t) = false from rfl], after0]
      rw [show (dats m 0 c).leavesExact 1 t = owns (c : Thread nD τ) (ms1 t) fullShare ((dats m 0 c).after 1 t) from by
        unfold Dat.leavesExact; rw [show cfg0.idle 1 (cfg0.grid.coords t) = false from rfl], after1]
      rw [show (dats m 0 c).leavesExact 2 t = owns (c : Thread nD τ) (ms2 t) fullShare ((dats m 0 c).after 2 t) from by
        unfold Dat.leavesExact; rw [show cfg0.idle 2 (cfg0.grid.coords t) = false from rfl], after2]
      rw [show (dats m 0 c).leavesExact 3 t = owns (c : Thread nD τ) (ms3 t) fullShare ((dats m 0 c).after 3 t) from by
        unfold Dat.leavesExact; rw [show cfg0.idle 3 (cfg0.grid.coords t) = false from rfl], after3]
      rw [show (dats m 0 c).leavesExact 4 t = owns (c : Thread nD τ) (ms4 t) fullShare ((dats m 0 c).after 4 t) from by
        unfold Dat.leavesExact; rw [liveAt_out t hc1], after4]
      rw [outsAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runOut c (grid0.coords t) _ _ _ _ _ _ _ _ _ _ _ _ hc0 hc1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (coverLast c _ _ _ _ _ _ _ _ _ _ _ _ _ hc0 hc1 _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ hc0 hc1 _ _ _ _ _)
    ·
      have hc0 : ¬condReset (grid0.coords t) := fun h => h0 ((hcondReset t).mp h)
      have hc1 : ¬condOut (grid0.coords t) := fun h => h1 ((hcondOut t).mp h)
      have hz : t.val ≠ 0 := by omega
      rw [show (dats m 0 c).leavesExact 0 t = owns (c : Thread nD τ) (ms0 t) fullShare ((dats m 0 c).after 0 t) from by
        unfold Dat.leavesExact; rw [show cfg0.idle 0 (cfg0.grid.coords t) = false from rfl], after0]
      rw [show (dats m 0 c).leavesExact 1 t = owns (c : Thread nD τ) (ms1 t) fullShare ((dats m 0 c).after 1 t) from by
        unfold Dat.leavesExact; rw [show cfg0.idle 1 (cfg0.grid.coords t) = false from rfl], after1]
      rw [show (dats m 0 c).leavesExact 2 t = owns (c : Thread nD τ) (ms2 t) fullShare ((dats m 0 c).after 2 t) from by
        unfold Dat.leavesExact; rw [show cfg0.idle 2 (cfg0.grid.coords t) = false from rfl], after2]
      rw [show (dats m 0 c).leavesExact 3 t = owns (c : Thread nD τ) (ms3 t) fullShare ((dats m 0 c).after 3 t) from by
        unfold Dat.leavesExact; rw [show cfg0.idle 3 (cfg0.grid.coords t) = false from rfl], after3]
      rw [Dat.leavesExact_idle (dats m 0 c) 4 t (idleAt_out t hc1) (noFlush_out t hc1)]
      rw [outsAt_add m c t h0 h1]
      unfold accAdd; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runAdd c (grid0.coords t) _ _ _ _ _ _ _ _ _ _ _ _ hc0 hc1 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (coverAdd c _ _ _ _ _ _ _ _ _ _ _ _ _ hc0 hc1 _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's named contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 192 := N_0; omega), scopedRest_acc]
  iintro H; iexists _; iexact H

end Cert.Kernel.Hand

end
-- ==== Proof.KbLaunch.lean ====
/-
  The launch: the whole run of @main, for any float instance.

  The host operations before the region run over the unscoped buffers; the region is entered with the four arrays the
  windows read and write (the gathered rows, the stacked gate/up projection — read through TWO windows, each holding
  half of its share —, the down projection, the result) and the accumulator; after the region the fifteen later host
  operations run over the result array and the buffers that bypassed the region. Every final state has the result
  array at what the pipeline's write-backs left, every other unscoped buffer outside the windows' arrays at what
  the later operations computed from that, and the two projection arrays as they were.
-/
import proofs.«175903_j26096221290603_1_alg».proof.Proof.KbFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-- The unscoped buffers that are no window's array. -/
abbrev restS : Finset (Ref sig .tc) := (Finset.univ.filter fun b : Ref sig .tc => ¬ b.isScoped) \ Finset.univ.image (Pipeline.arrRef spec0)

theorem v19_not_rest : main_v19 ∉ restS := fun h =>
  (Finset.mem_sdiff.mp h).2 (Finset.mem_image.mpr ⟨4, Finset.mem_univ _, rfl⟩)

/-- The buffers the later host operations run within: the result array and the bypassing buffers. -/
abbrev tailS : Finset (DevRef τ sig) := (insert main_v19 restS).map ⟨Proc.devRef (sig := sig) .tc, Proc.devRef_injective _⟩

/-- The buffer contents when the region is left: the result array at what the write-backs left, the rest as entered. -/
def Wexit (c : Dev nD) : Valuation τ sig (Elt F) :=
  Function.update (V0 m c) (Proc.devRef .tc main_v19) ((dats m 0 c).arrAt 4 cfg0.N)

/-- and after the later host operations. -/
def Wend (c : Dev nD) : Valuation τ sig (Elt F) := StableHlo.after hostOps1 (Wexit m c)

theorem held_tailS (c : Dev nD) (W : Valuation τ sig (Elt F)) :
    (StableHlo.held (c.tc : Thread nD τ) tailS W : sProp 𝕄)
      = iprop((((c.tc : Thread nD τ).loc main_v19) ↦{fullShare} W (Proc.devRef .tc main_v19))
          ∗ bigSep restS fun b => (((c.tc : Thread nD τ).loc b) ↦{fullShare} W (Proc.devRef .tc b) : sProp 𝕄)) := by
  unfold StableHlo.held tailS
  rw [bigSep_map, bigSep_insert v19_not_rest]
  rfl

/-- Each later host operation touches only the result array and the bypassing buffers. -/
theorem hostOps1_tailS : ∀ op ∈ (hostOps1 : List (HloOp τ sig (Elt F))), op.bufs ⊆ tailS := by
  intro op hop b hb
  have hu : b ∈ Pipeline.ucRefs τ sig := Pipeline.sub_ucRefs op ((List.forall_iff_forall_mem.mp hostOps1_sub) op hop) hb
  simp only [hostOps1, List.mem_cons, List.mem_nil_iff, or_false] at hop
  have hne : b ≠ Proc.devRef .tc main_v10 ∧ b ≠ Proc.devRef .tc main_arg3 ∧ b ≠ Proc.devRef .tc main_arg4 := by
    rcases hop with rfl | rfl | rfl | rfl | rfl | rfl | rfl | rfl | rfl | rfl | rfl | rfl | rfl | rfl | rfl <;>
      simp only [StableHlo.nullary_bufs, StableHlo.unary_bufs, StableHlo.binary_bufs, StableHlo.ternary_bufs, StableHlo.reshape_bufs,
        Finset.mem_insert, Finset.mem_singleton] at hb <;>
      (rcases hb with rfl | rfl | rfl | rfl) <;>
      exact ⟨StableHlo.devRef_ne_of_ne (by decide), StableHlo.devRef_ne_of_ne (by decide), StableHlo.devRef_ne_of_ne (by decide)⟩
  simp only [Pipeline.ucRefs, StableHlo.tcRefs, Finset.mem_filter, Finset.mem_map, Finset.mem_univ, true_and, Function.Embedding.coeFn_mk] at hu
  obtain ⟨⟨r, rfl⟩, hr⟩ := hu
  refine Finset.mem_map.mpr ⟨r, ?_, rfl⟩
  by_cases h19 : r = main_v19
  · exact h19 ▸ Finset.mem_insert_self _ _
  · refine Finset.mem_insert_of_mem (Finset.mem_sdiff.mpr ⟨Finset.mem_filter.mpr ⟨Finset.mem_univ _, hr⟩, fun hi => ?_⟩)
    obtain ⟨w, -, hw⟩ := Finset.mem_image.mp hi
    fin_cases w
    · exact hne.1 (congrArg _ hw.symm)
    · exact hne.2.1 (congrArg _ hw.symm)
    · exact hne.2.1 (congrArg _ hw.symm)
    · exact hne.2.2 (congrArg _ hw.symm)
    · exact h19 hw.symm

/-- No later host operation writes the result array. -/
theorem hostOps1_keeps_v19 : ∀ op ∈ (hostOps1 : List (HloOp τ sig (Elt F))), Proc.devRef .tc main_v19 ∉ op.writes := by
  intro op hop
  simp only [hostOps1, List.mem_cons, List.mem_nil_iff, or_false] at hop
  rcases hop with rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-! ## The arrays at the region's two ends -/

/-- The bypassing buffers, each whole at the contents `W`. -/
def restPts (c : Dev nD) (W : Valuation τ sig (Elt F)) : sProp 𝕄 :=
  bigSep restS fun b => (((c.tc : Thread nD τ).loc b) ↦{fullShare} W (Proc.devRef .tc b) : sProp 𝕄)

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The pipeline's arrays, window by window: the gathered rows, the two halves of the stacked projection's share, the
    down projection, the result. -/
theorem arrays_eq5 (c : Dev nD) (G : (w : Fin cfg0.W) → Buf (Elt F) ((cfg0.win w).arr.view.loc (c.tc : Thread nD τ))) :
    ((dats m 0 c).arrays G : sProp 𝕄)
      = iprop((((c.tc : Thread nD τ).loc main_v10) ↦{fullShare} G 0) ∗ (((c.tc : Thread nD τ).loc main_arg3) ↦{fullShare.left} G 1)
          ∗ (((c.tc : Thread nD τ).loc main_arg3) ↦{fullShare.right} G 2) ∗ (((c.tc : Thread nD τ).loc main_arg4) ↦{fullShare} G 3)
          ∗ (((c.tc : Thread nD τ).loc main_v19) ↦{fullShare} G 4)) := by
  unfold Dat.arrays
  rw [bigSep_W0, (arr_whole0 0).set_eq_univ, (arr_whole0 1).set_eq_univ, (arr_whole0 3).set_eq_univ,
    (arr_whole0 4).set_eq_univ, share0, share1, share2, share3, share4]

/-- The distinct buffers behind the windows' arrays, one by one. -/
theorem arrBufs_eq4 (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v10) ↦{fullShare} W main_v10) ∗ (((c.tc : Thread nD τ).loc main_arg3) ↦{fullShare} W main_arg3)
          ∗ (((c.tc : Thread nD τ).loc main_arg4) ↦{fullShare} W main_arg4) ∗ (((c.tc : Thread nD τ).loc main_v19) ↦{fullShare} W main_v19)) := by
  unfold Pipeline.arrBufs
  exact bigSep_eq_bigSepL_of_eq [main_v10, main_arg3, main_arg4, main_v19] (by decide) (by decide) _

/-- What the launch hands the region of the buffers behind the arrays makes the pipeline's arrays at entry: the
    stacked projection's full share split between the two windows that read it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrays_eq5, arrBufs_eq4]
  iintro ⟨H0, H3, H4, H19⟩
  ihave H3 := (pointsTo_share (PosShare.mem_left_op_right fullShare)).1 $$ H3
  icases H3 with ⟨H3l, H3r⟩
  isplitl [H0]; · iexact H0
  isplitl [H3l]; · iexact H3l
  isplitl [H3r]; · iexact H3r
  isplitl [H4]; · iexact H4
  iexact H19

/-! ## The host operations after the region -/

theorem Wexit_v19 (c : Dev nD) : Wexit m c (Proc.devRef .tc main_v19) = (dats m 0 c).arrAt 4 cfg0.N := by
  unfold Wexit; exact Function.update_self _ _ _

theorem Wexit_rest (c : Dev nD) (b : Ref sig .tc) (hb : b ∈ restS) : Wexit m c (Proc.devRef .tc b) = V0 m c (Proc.devRef .tc b) := by
  unfold Wexit
  exact Function.update_of_ne (StableHlo.devRef_ne_of_ne (fun e => v19_not_rest (by rw [← e]; exact hb))) _ _

theorem Wend_v19 (c : Dev nD) : Wend m c (Proc.devRef .tc main_v19) = (dats m 0 c).arrAt 4 cfg0.N := by
  unfold Wend
  exact (StableHlo.after_of_forall_not_mem _ _ hostOps1_keeps_v19).trans (Wexit_v19 m c)

theorem held_exit (c : Dev nD) :
    (StableHlo.held (c.tc : Thread nD τ) tailS (Wexit m c) : sProp 𝕄)
      = iprop((((c.tc : Thread nD τ).loc main_v19) ↦{fullShare} (dats m 0 c).arrAt 4 cfg0.N) ∗ restPts c (V0 m c)) := by
  refine (held_tailS c (Wexit m c)).trans ?_
  rw [Wexit_v19]
  unfold restPts
  rw [bigSep_congr (fun b hb => by rw [Wexit_rest m c b hb])]

theorem held_end (c : Dev nD) :
    (StableHlo.held (c.tc : Thread nD τ) tailS (Wend m c) : sProp 𝕄)
      = iprop((((c.tc : Thread nD τ).loc main_v19) ↦{fullShare} (dats m 0 c).arrAt 4 cfg0.N) ∗ restPts c (Wend m c)) := by
  refine (held_tailS c (Wend m c)).trans ?_
  rw [Wend_v19]
  rfl

set_option backward.isDefEq.respectTransparency.types false in
/-- From the region's exit — the arrays at their final contents, the bypassing buffers as entered — the later host
    operations run within the result array and the bypassing buffers and hand back the arrays as they were and the
    bypassing buffers at what the operations computed. -/
theorem tail (c : Dev nD) (Q' : PUnit → sProp 𝕄) :
    iprop((iprop((dats m 0 c).arrays ((dats m 0 c).arrAt · cfg0.N) ∗ restPts c (Wend m c)) -∗ Q' ⟨⟩)
        ∗ boundary (c.tc : Thread nD τ) ∗ (dats m 0 c).arrays ((dats m 0 c).arrAt · cfg0.N) ∗ restPts c (V0 m c))
      ⊢ wp frame (wpE (Pipeline.defs (pcfgs (F := F)) defs₀) (Variants.lift Variants.none) (c.tc : Thread nD τ) none) Set.univ
          (chain (([hostOps1] : List (List (HloOp τ sig (Elt F)))).map StableHlo.seq ++ [])) Q' := by
  rw [arrays_eq5]
  iintro ⟨Hk, Hb, ⟨H0, H1, H2, H3, H19⟩, HZ⟩
  ihave Hh := (Entails.of_eq (held_exit m c).symm) $$ [H19 HZ]
  · isplitl [H19] <;> iassumption
  iapply (Pipeline.wp_seqs_then (pcfgs (F := F)) defs₀ Variants.none c tailS [] [hostOps1]
    (fun ops ho op h => by rw [List.mem_singleton.mp ho] at h; exact hostOps1_tailS op h)
    (fun ops ho op h => by rw [List.mem_singleton.mp ho] at h; exact (List.forall_iff_forall_mem.mp hostOps1_fresh) op h) (Wexit m c)) $$ [Hb Hh]
  · isplitl [Hb] <;> iassumption
  iintro Hb
  rw [Pipeline.chain_nil, wp_pure]
  imodintro
  iapply Hk
  icases Hb with ⟨-, Hh⟩
  ihave Hh := (Entails.of_eq (show (StableHlo.held (c.tc : Thread nD τ) tailS (StableHlo.after (List.flatten [hostOps1]) (Wexit m c)) : sProp 𝕄)
      = iprop((((c.tc : Thread nD τ).loc main_v19) ↦{fullShare} (dats m 0 c).arrAt 4 cfg0.N) ∗ restPts c (Wend m c)) from by
    rw [List.flatten_cons, List.flatten_nil, List.append_nil]; exact held_end m c)) $$ Hh
  icases Hh with ⟨H19, HZ⟩
  isplitr [HZ]
  · isplitl [H0]; · iexact H0
    isplitl [H1]; · iexact H1
    isplitl [H2]; · iexact H2
    isplitl [H3]; · iexact H3
    iexact H19
  · iexact HZ

/-- The launch's bypassing buffers at the region-entry contents. -/
theorem rest_eq (c : Dev nD) :
    (Pipeline.unscopedRest (Ix := Unit) (Name := ℕ) (U := UR sig nD τ) (Lvl := ℕ) spec0 c (V m c) : sProp 𝕄) = restPts c (V0 m c) := by
  unfold Pipeline.unscopedRest restPts; rfl

/-! ## The run -/

/-- The physical post: every windowed array at what the write-backs left, every bypassing buffer at what the later host
    operations computed. -/
def QC : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ restS, r.2.mem ((c.tc : Thread nD τ).loc b) = Wend m c (Proc.devRef .tc b)

set_option maxHeartbeats 4000000 in
set_option backward.isDefEq.respectTransparency.types false in
theorem run_main : θ_run defs (onTc (τ := τ) (main (F := F))) ⟨m, fun _ => 0, ρ⟩ (QC m) :=
  Pipeline.θ_run_region_noSem_pf_tail (pcfgs (F := F)) (fun p => (cfgs p).toPCfg_adm) (dats m) () cellOf_inj (0 : Fin 1) winFacts₀0
    (Pipeline.PreFacts.none _) emb₁ defs₀ Variants.none m ρ main (fun _ => chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp)) (Z := fun c => restPts c (V0 m c)) (Z' := fun c => restPts c (Wend m c))
    (hX := fun c => by
      rw [Pipeline.unscopedRestP_none]
      refine (show (Pipeline.unscopedRest (Ix := Unit) (Name := ℕ) (U := UR sig nD τ) (Lvl := ℕ) spec0 c (V m c) : sProp 𝕄) ⊢ _ from ?_)
      refine (Entails.of_eq (rest_eq m c)).trans ?_
      iintro H
      isplitr; · iempintro
      iexact H)
    (hin := fun c => by
      iintro ⟨-, -, Hr⟩
      iapply (hin m c); iexact Hr)
    (hout := fun c => (hout m c).trans (by
      iintro H
      isplitr; · iempintro
      iexact H))
    (htail := fun c Q' => tail m c Q')
    (QY := fun c s => ∀ b ∈ restS, s.mem ((c.tc : Thread nD τ).loc b) = Wend m c (Proc.devRef .tc b))
    (hY := fun c s' => by
      iintro ⟨-, HU, HSI⟩
      unfold restPts
      imodintro
      iapply (pointsTo_read_all restS (fun b => (c.tc : Thread nD τ).loc b) (fun b => Wend m c (Proc.devRef .tc b)) s')
      isplitl [HU] <;> iassumption)
    (hQ := fun s h c => ⟨(h c).1, (h c).2.2⟩)

end Cert.Kernel.Hand

end
-- ==== Proof.KbHost.lean ====
/-
  The arguments of the word-level program through its host operations: no operation before the kernel region, and
  none after it, writes an argument's buffer, so the fold of either stretch of operations leaves each argument's
  contents as it found them.
-/
import proofs.«175903_j26096221290603_1_alg».proof.Proof.KbBase

noncomputable section

namespace Cert.Kernel.HostValue

open Cert.Kernel Cert.Kernel.Gen Cert.Kernel.Hand
open Idealize.ShloMosaic Idealize.ShloMosaic.TcCoe Idealize.SL.Sem Idealize.ShloMosaic.StableHlo

variable {F : FTy → Type} [FloatOps F]

/-! ## The fold of the operations before the region, at the arguments -/

set_option maxRecDepth 8192 in
set_option maxHeartbeats 2000000 in
theorem pre_arg0 (W : Valuation τ sig (Elt F)) :
    StableHlo.after (List.flatten (preOps (F := F))) W (Proc.devRef .tc main_arg0) = W (Proc.devRef .tc main_arg0) := by
  simp only [preOps, List.flatten_cons, List.flatten_nil, List.append_nil, List.cons_append, List.nil_append]
  after_results_simp

set_option maxRecDepth 8192 in
set_option maxHeartbeats 2000000 in
theorem pre_arg1 (W : Valuation τ sig (Elt F)) :
    StableHlo.after (List.flatten (preOps (F := F))) W (Proc.devRef .tc main_arg1) = W (Proc.devRef .tc main_arg1) := by
  simp only [preOps, List.flatten_cons, List.flatten_nil, List.append_nil, List.cons_append, List.nil_append]
  after_results_simp

set_option maxRecDepth 8192 in
set_option maxHeartbeats 2000000 in
theorem pre_arg2 (W : Valuation τ sig (Elt F)) :
    StableHlo.after (List.flatten (preOps (F := F))) W (Proc.devRef .tc main_arg2) = W (Proc.devRef .tc main_arg2) := by
  simp only [preOps, List.flatten_cons, List.flatten_nil, List.append_nil, List.cons_append, List.nil_append]
  after_results_simp

set_option maxRecDepth 8192 in
set_option maxHeartbeats 2000000 in
theorem pre_arg3 (W : Valuation τ sig (Elt F)) :
    StableHlo.after (List.flatten (preOps (F := F))) W (Proc.devRef .tc main_arg3) = W (Proc.devRef .tc main_arg3) := by
  simp only [preOps, List.flatten_cons, List.flatten_nil, List.append_nil, List.cons_append, List.nil_append]
  after_results_simp

set_option maxRecDepth 8192 in
set_option maxHeartbeats 2000000 in
theorem pre_arg4 (W : Valuation τ sig (Elt F)) :
    StableHlo.after (List.flatten (preOps (F := F))) W (Proc.devRef .tc main_arg4) = W (Proc.devRef .tc main_arg4) := by
  simp only [preOps, List.flatten_cons, List.flatten_nil, List.append_nil, List.cons_append, List.nil_append]
  after_results_simp

/-! ## The fold of the operations after the region, at the arguments -/

theorem post_arg0 (W : Valuation τ sig (Elt F)) :
    StableHlo.after (hostOps1 (F := F)) W (Proc.devRef .tc main_arg0) = W (Proc.devRef .tc main_arg0) := by
  after_results_simp

theorem post_arg1 (W : Valuation τ sig (Elt F)) :
    StableHlo.after (hostOps1 (F := F)) W (Proc.devRef .tc main_arg1) = W (Proc.devRef .tc main_arg1) := by
  after_results_simp

theorem post_arg2 (W : Valuation τ sig (Elt F)) :
    StableHlo.after (hostOps1 (F := F)) W (Proc.devRef .tc main_arg2) = W (Proc.devRef .tc main_arg2) := by
  after_results_simp

theorem post_arg3 (W : Valuation τ sig (Elt F)) :
    StableHlo.after (hostOps1 (F := F)) W (Proc.devRef .tc main_arg3) = W (Proc.devRef .tc main_arg3) := by
  after_results_simp

theorem post_arg4 (W : Valuation τ sig (Elt F)) :
    StableHlo.after (hostOps1 (F := F)) W (Proc.devRef .tc main_arg4) = W (Proc.devRef .tc main_arg4) := by
  after_results_simp

variable (m : (ℓ : Loc nD τ sig) → Buf (Elt F) ℓ)

/-- When the region is entered the arguments are as launched. -/
theorem V_arg0 (c : Dev nD) : V m c main_arg0 = m ((c.tc : Thread nD τ).loc main_arg0) := pre_arg0 _
theorem V_arg1 (c : Dev nD) : V m c main_arg1 = m ((c.tc : Thread nD τ).loc main_arg1) := pre_arg1 _
theorem V_arg2 (c : Dev nD) : V m c main_arg2 = m ((c.tc : Thread nD τ).loc main_arg2) := pre_arg2 _
theorem V_arg3 (c : Dev nD) : V m c main_arg3 = m ((c.tc : Thread nD τ).loc main_arg3) := pre_arg3 _
theorem V_arg4 (c : Dev nD) : V m c main_arg4 = m ((c.tc : Thread nD τ).loc main_arg4) := pre_arg4 _

end Cert.Kernel.HostValue

end
-- ==== Proof.KbHostEnd.lean ====
/-
  The end of the word-level program read off its run: once the operations after the region have run, the arguments
  are as launched — the region's output array is not an argument and no later operation writes one.
-/
import proofs.«175903_j26096221290603_1_alg».proof.Proof.KbLaunch
import proofs.«175903_j26096221290603_1_alg».proof.Proof.KbHost

noncomputable section

namespace Cert.Kernel.HostValue

open Cert.Kernel Cert.Kernel.Gen Cert.Kernel.Hand
open Idealize.ShloMosaic Idealize.ShloMosaic.TcCoe Idealize.SL.Sem Idealize.ShloMosaic.StableHlo

variable {F : FTy → Type} [FloatOps F]

variable (m : (ℓ : Loc nD τ sig) → Buf (Elt F) ℓ)

/-- Argument 0 is as launched: neither the region's output array nor any later operation's result is it. -/
theorem Wend_arg0 (c : Dev nD) : Wend m c (Proc.devRef .tc main_arg0) = m ((c.tc : Thread nD τ).loc main_arg0) := by
  unfold Wend
  rw [post_arg0]
  unfold Wexit
  rw [Function.update_of_ne (devRef_ne_of_ne (by decide))]
  exact pre_arg0 _

/-- Argument 1 is as launched: neither the region's output array nor any later operation's result is it. -/
theorem Wend_arg1 (c : Dev nD) : Wend m c (Proc.devRef .tc main_arg1) = m ((c.tc : Thread nD τ).loc main_arg1) := by
  unfold Wend
  rw [post_arg1]
  unfold Wexit
  rw [Function.update_of_ne (devRef_ne_of_ne (by decide))]
  exact pre_arg1 _

/-- Argument 2 is as launched: neither the region's output array nor any later operation's result is it. -/
theorem Wend_arg2 (c : Dev nD) : Wend m c (Proc.devRef .tc main_arg2) = m ((c.tc : Thread nD τ).loc main_arg2) := by
  unfold Wend
  rw [post_arg2]
  unfold Wexit
  rw [Function.update_of_ne (devRef_ne_of_ne (by decide))]
  exact pre_arg2 _

/-- Argument 3 is as launched: neither the region's output array nor any later operation's result is it. -/
theorem Wend_arg3 (c : Dev nD) : Wend m c (Proc.devRef .tc main_arg3) = m ((c.tc : Thread nD τ).loc main_arg3) := by
  unfold Wend
  rw [post_arg3]
  unfold Wexit
  rw [Function.update_of_ne (devRef_ne_of_ne (by decide))]
  exact pre_arg3 _

/-- Argument 4 is as launched: neither the region's output array nor any later operation's result is it. -/
theorem Wend_arg4 (c : Dev nD) : Wend m c (Proc.devRef .tc main_arg4) = m ((c.tc : Thread nD τ).loc main_arg4) := by
  unfold Wend
  rw [post_arg4]
  unfold Wexit
  rw [Function.update_of_ne (devRef_ne_of_ne (by decide))]
  exact pre_arg4 _

end Cert.Kernel.HostValue

end
-- ==== Proof.KbResult.lean ====
/-
  What the word-level kernel's run leaves of its arguments: every argument array is as it was.
-/
import proofs.«175903_j26096221290603_1_alg».proof.Proof.KbHostEnd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.HostValue

theorem v31_rest : main_v31 ∈ restS :=
  Finset.mem_sdiff.mpr ⟨Finset.mem_filter.mpr ⟨Finset.mem_univ _, by decide⟩, by decide⟩
theorem arg0_rest : main_arg0 ∈ restS :=
  Finset.mem_sdiff.mpr ⟨Finset.mem_filter.mpr ⟨Finset.mem_univ _, by decide⟩, by decide⟩
theorem arg1_rest : main_arg1 ∈ restS :=
  Finset.mem_sdiff.mpr ⟨Finset.mem_filter.mpr ⟨Finset.mem_univ _, by decide⟩, by decide⟩
theorem arg2_rest : main_arg2 ∈ restS :=
  Finset.mem_sdiff.mpr ⟨Finset.mem_filter.mpr ⟨Finset.mem_univ _, by decide⟩, by decide⟩

/-- Every argument array ends as it began: three bypass the region and no host operation writes them; the two
    projection arrays are read by the region's input windows, which are never written back. -/
theorem args_kept (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 arg0_rest).trans (Wend_arg0 m c),
   ((h c).2 main_arg1 arg1_rest).trans (Wend_arg1 m c),
   ((h c).2 main_arg2 arg2_rest).trans (Wend_arg2 m c),
   ((h c).1 1).trans (((dats m 0 c).arrAt_in 1 rfl _).trans ((A_eq m c 1).trans (V_arg3 m c))),
   ((h c).1 3).trans (((dats m 0 c).arrAt_in 3 rfl _).trans ((A_eq m c 3).trans (V_arg4 m c)))⟩

end Cert.Kernel.Hand

end
-- ==== Proof.KiBase.lean ====
/-
  The launch side of the expert kernel's frame, for any float instance.

  @main is five stretches of host operations (the index array flattened, its stable argsort, the constant 8, the
  floor division of the sorted positions by 8, and the gathers of token rows and routing weights), then ONE kernel
  region on a grid of 64 experts × 3 tiles of the intermediate axis, then fifteen more host operations (the
  weighting and the scatter-add). The region's body has three control cases, decided by the tile coordinate alone:
  at tile 0 the accumulator is first overwritten with zeros, at every tile the tile's partial product is added to
  it, at tile 2 it is copied into the output block. This module states what the cases share: the buffers' contents
  when the region is entered, each input window's block at a grid point, the two branch conditions in closed form
  (point t has tile coordinate t mod 3), and where the output window is idle.
-/
import proofs.«175903_j26096221290603_1_alg».proof.Proof.Gen.KernelIdeal.Launch
import proofs.«175903_j26096221290603_1_alg».proof.Proof.Gen.KernelIdeal.Skeleton
import proofs.«175903_j26096221290603_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) := [hostOps0, hostOps0_1, hostOps0_2, hostOps0_3, hostOps0_4]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the later host operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that
    does not fetch it has not moved its block index), for any proof data whose array is the region-entry contents
    and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the first conditional (the accumulator is reset), from the grid coordinates. -/
abbrev condReset (i : grid0.Coords) : Prop := (Scalar.cmpi .ne (Scalar.extui (Scalar.cmpi .eq (BitVec.ofNat 32 (i 1).val) 0#32)) 0#32) = 1#1
/-- It holds at the points ≡ 0 (mod 3): tile 0 of each expert. -/
theorem hcondReset : ∀ t : Fin cfg0.N, condReset (grid0.coords t) ↔ t.val % 3 = 0 :=
  (by decide +kernel : ∀ t : Fin grid0.N, condReset (grid0.coords t) ↔ t.val % 3 = 0)

/-- The condition of the second conditional (the accumulator is copied out). -/
abbrev condOut (i : grid0.Coords) : Prop := k0_cond2 i = 1#1
/-- It holds at the points ≡ 2 (mod 3): the last tile of each expert. -/
theorem hcondOut : ∀ t : Fin cfg0.N, condOut (grid0.coords t) ↔ t.val % 3 = 2 :=
  (by decide +kernel : ∀ t : Fin grid0.N, condOut (grid0.coords t) ↔ t.val % 3 = 2)

/-! ## Where the output window is idle -/

theorem idleAt_out : ∀ t : Fin cfg0.N, ¬condOut (grid0.coords t) → cfg0.idle 4 (grid0.coords t) = true := by decide +kernel
theorem noFlush_out : ∀ t : Fin cfg0.N, ¬condOut (grid0.coords t) → (cfg0.win 4).flush t = false := by decide +kernel
theorem liveAt_out : ∀ t : Fin cfg0.N, condOut (grid0.coords t) → cfg0.idle 4 (grid0.coords t) = false := by decide +kernel

/-! ## The staging and scratch memrefs at a point -/

abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)
/-- The accumulator: a whole scoped buffer of the kernel's own, carried from point to point. -/
abbrev accM : Memref sig .tc .vmem S256x2048 .f32 := Memref.whole cc0_scratch0
abbrev accV : View sig .tc .vmem S256x2048 .f32 := (accM).view
/-- One staging buffer of the output window, through which its contents are stated. -/
abbrev outV : View sig .tc .vmem S1x256x2048 .f32 := (Memref.whole cc0_stg4_0 : Memref sig .tc .vmem S1x256x2048 .f32).view

/-- The scoped rest and the generator register, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KiRunA.lean ====
/-
  The body's run at a point of tile 0 that is not the last tile (the accumulator is reset, nothing is copied out): on whole
  staging buffers holding the four input blocks, the output buffer at any contents (handed back untouched) and the
  accumulator at any contents, the body runs to the end, the inputs as they were and the accumulator overwritten by
  its two stores (zeros, then zeros plus the tile's partial product). The list of what the stores wrote is found by
  running the body.
-/
import proofs.«175903_j26096221290603_1_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i)
    (x0 : Vec F S1x256x2048 .f32) (x1 : Vec F S1x256x2048 .f32) (x2 : Vec F S1x256x2048 .f32) (x3 : Vec F S1x2048x256 .f32) :
    { LS : List (View.Piece (Elt F) S256x2048 .f32) //
      ∀ (xi4 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KiRunB.lean ====
/-
  The body's run at a point of tile 1 (no reset, nothing copied out): the accumulator, holding what the point before
  left, is overwritten by its one store (itself plus the tile's partial product); the inputs and the output buffer
  are handed back as found.
-/
import proofs.«175903_j26096221290603_1_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i)
    (x0 : Vec F S1x256x2048 .f32) (x1 : Vec F S1x256x2048 .f32) (x2 : Vec F S1x256x2048 .f32) (x3 : Vec F S1x2048x256 .f32) (xs : Vec F S256x2048 .f32) :
    { LS : List (View.Piece (Elt F) S256x2048 .f32) //
      ∀ (xi4 : Vec F S1x256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KiRunC.lean ====
/-
  The body's run at a point of the last tile (no reset, the accumulator copied out): the accumulator is overwritten by its
  one store (itself plus the tile's partial product) and the output buffer, at any contents before, by the copy of
  that sum.
-/
import proofs.«175903_j26096221290603_1_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runOut (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i)
    (x0 : Vec F S1x256x2048 .f32) (x1 : Vec F S1x256x2048 .f32) (x2 : Vec F S1x256x2048 .f32) (x3 : Vec F S1x2048x256 .f32) (xs : Vec F S256x2048 .f32) :
    Σ' (L4 : List (View.Piece (Elt F) S1x256x2048 .f32)), { LS : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KiFrame.lean ====
/-
  What the accumulator and the output block hold after each grid point, the proof data of the pipeline, and the body
  obligation at every point.

  Grid point t is expert t / 3, tile t mod 3. After a point of tile 0 the accumulator holds what that case's two
  stores left (zeros plus the tile's product); after a point of tile 1 or 2, what the one store left over the
  contents the point before left; after a point of tile 2 the output's staging buffer holds the copy of the
  accumulator, and only there is it written back. Between points the region invariant is the accumulator at those
  named contents (at anything before the first point).
-/
import proofs.«175903_j26096221290603_1_alg».proof.Proof.KiRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the list of its stores -/

def accReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i) (x0 : Vec F S1x256x2048 .f32) (x1 : Vec F S1x256x2048 .f32) (x2 : Vec F S1x256x2048 .f32) (x3 : Vec F S1x2048x256 .f32) : Vec F S256x2048 .f32 :=
  accV.read (Elt F) (accV.writes (Elt F) accV.junk (runReset c i arg2 harg2 arg3 harg3 arg4 harg4 arg5 harg5 arg6 harg6 arg7 harg7 hc0 hc1 x0 x1 x2 x3).1)

theorem coverReset (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i) (x0 : Vec F S1x256x2048 .f32) (x1 : Vec F S1x256x2048 .f32) (x2 : Vec F S1x256x2048 .f32) (x3 : Vec F S1x2048x256 .f32) (y : S256x2048.Idx) :
    ∃ pc ∈ (runReset c i arg2 harg2 arg3 harg3 arg4 harg4 arg5 harg5 arg6 harg6 arg7 harg7 hc0 hc1 x0 x1 x2 x3).1, y ∈ pc.1.set :=
  View.cover_of_tiledL (runReset c i arg2 harg2 arg3 harg3 arg4 harg4 arg5 harg5 arg6 harg6 arg7 harg7 hc0 hc1 x0 x1 x2 x3).1 S256x2048.size (by sl_kernel_rfl) y

def accAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i) (x0 : Vec F S1x256x2048 .f32) (x1 : Vec F S1x256x2048 .f32) (x2 : Vec F S1x256x2048 .f32) (x3 : Vec F S1x2048x256 .f32) (xs : Vec F S256x2048 .f32) : Vec F S256x2048 .f32 :=
  accV.read (Elt F) (accV.writes (Elt F) accV.junk (runAdd c i arg2 harg2 arg3 harg3 arg4 harg4 arg5 harg5 arg6 harg6 arg7 harg7 hc0 hc1 x0 x1 x2 x3 xs).1)

theorem coverAdd (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i) (x0 : Vec F S1x256x2048 .f32) (x1 : Vec F S1x256x2048 .f32) (x2 : Vec F S1x256x2048 .f32) (x3 : Vec F S1x2048x256 .f32) (xs : Vec F S256x2048 .f32) (y : S256x2048.Idx) :
    ∃ pc ∈ (runAdd c i arg2 harg2 arg3 harg3 arg4 harg4 arg5 harg5 arg6 harg6 arg7 harg7 hc0 hc1 x0 x1 x2 x3 xs).1, y ∈ pc.1.set :=
  View.cover_of_tiledL (runAdd c i arg2 harg2 arg3 harg3 arg4 harg4 arg5 harg5 arg6 harg6 arg7 harg7 hc0 hc1 x0 x1 x2 x3 xs).1 S256x2048.size (by sl_kernel_rfl) y

def accLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) : Vec F S256x2048 .f32 :=
  accV.read (Elt F) (accV.writes (Elt F) accV.junk (runOut c i arg2 harg2 arg3 harg3 arg4 harg4 arg5 harg5 arg6 harg6 arg7 harg7 hc0 hc1 x0 x1 x2 x3 xs).2.1)

theorem coverLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) (y : S256x2048.Idx) :
    ∃ pc ∈ (runOut c i arg2 harg2 arg3 harg3 arg4 harg4 arg5 harg5 arg6 harg6 arg7 harg7 hc0 hc1 x0 x1 x2 x3 xs).2.1, y ∈ pc.1.set :=
  View.cover_of_tiledL (runOut c i arg2 harg2 arg3 harg3 arg4 harg4 arg5 harg5 arg6 harg6 arg7 harg7 hc0 hc1 x0 x1 x2 x3 xs).2.1 S256x2048.size (by sl_kernel_rfl) y

def outLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) : Vec F S1x256x2048 .f32 :=
  outV.read (Elt F) (outV.writes (Elt F) outV.junk (runOut c i arg2 harg2 arg3 harg3 arg4 harg4 arg5 harg5 arg6 harg6 arg7 harg7 hc0 hc1 x0 x1 x2 x3 xs).1)

theorem coverOutLast (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i) (x0 : Vec F S1x256x2048 .f32) (x1 : Vec F S1x256x2048 .f32) (x2 : Vec F S1x256x2048 .f32) (x3 : Vec F S1x2048x256 .f32) (xs : Vec F S256x2048 .f32) (y : S1x256x2048.Idx) :
    ∃ pc ∈ (runOut c i arg2 harg2 arg3 harg3 arg4 harg4 arg5 harg5 arg6 harg6 arg7 harg7 hc0 hc1 x0 x1 x2 x3 xs).1, y ∈ pc.1.set :=
  View.cover_of_tiledL (runOut c i arg2 harg2 arg3 harg3 arg4 harg4 arg5 harg5 arg6 harg6 arg7 harg7 hc0 hc1 x0 x1 x2 x3 xs).1 S1x256x2048.size (by sl_kernel_rfl) y

/-- At a point that stores nothing into the output block the proof data's entry for it is a placeholder nothing reads. -/
def outIdle : Vec F S1x256x2048 .f32 := outV.read (Elt F) (outV.writes (Elt F) outV.junk [])

/-! ## Point by point -/

/-- What the output's staging buffer (first component) and the accumulator (second) hold after the body at point `n`. -/
def outsAt (c : Dev nD) : (n : ℕ) → n < cfg0.N → Vec F S1x256x2048 .f32 × Vec F S256x2048 .f32
  | 0, hn => (outIdle, accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((hcondReset ⟨0, hn⟩).mpr (Nat.zero_mod _)) (fun h => (fun h => by (try dsimp only at h); omega) ((hcondOut ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 3 = 0 then
      (outIdle, accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((hcondReset ⟨n + 1, hn⟩).mpr h0) (fun h => (fun h => by (try dsimp only at h); omega) ((hcondOut ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 3 = 2 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) ((hcondOut ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) ((hcondOut ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outIdle, accAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((hcondReset ⟨n + 1, hn⟩).mp h)) (fun h => h1 ((hcondOut ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_reset (c : Dev nD) (t : Fin cfg0.N) (h0 : t.val % 3 = 0) (hc1 : ¬condOut (grid0.coords t)) :
    outsAt m c t.val t.isLt = (outIdle, accReset c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)) := by
  obtain ⟨n, hn⟩ := t
  cases n with
  | zero => exact rfl
  | succ n => exact (dif_pos h0).trans rfl

theorem outsAt_add (c : Dev nD) (t : Fin cfg0.N) (h0 : ¬t.val % 3 = 0) (h1 : ¬t.val % 3 = 2) :
    outsAt m c t.val t.isLt = (outIdle, accAdd c (grid0.coords t) (ms0 t) (hs0 t) (ms1 t) (hs1 t) (ms2 t) (hs2 t) (ms3 t) (hs3 t) (ms4 t) (hs4 t) accM (Memref.isWhole_whole _) (fun h => h0 ((hcondReset t).mp h)) (fun h => h1 ((hcondOut t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 3 = 0) (h1 : t.val % 3 = 2) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((hcondReset t).mp h)) ((hcondOut t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((hcondReset t).mp h)) ((hcondOut t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The region invariant before position `n`: before the first point the accumulator at anything, afterwards at what
    the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) accM fullShare ((outsAt m c n hn).2) := rfl

theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-! ## The pipeline's proof data -/

/-- The proof data on core `c`: the arrays as the region finds them; after the body each input's buffer at its block and
    the output's at `outsAt`; the invariant `PhiS`; nothing owed. The stacked gate/up array is read through two
    windows, each holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the tile coordinate says which case the point is in; the
    invariant hands the body the accumulator at what the point before left (at anything at the first point) and takes
    it back at this point's contents; the output's buffer is handed back untouched except at the last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 3 = 0
  ·
    have hc0 : condReset (grid0.coords t) := (hcondReset t).mpr h0
    have hc1 : ¬condOut (grid0.coords t) := fun h => by have := (hcondOut t).mp h; omega
    rw [show (dats m 0 c).leavesExact 0 t = owns (c : Thread nD τ) (ms0 t) fullShare ((dats m 0 c).after 0 t) from by
      unfold Dat.leavesExact; rw [show cfg0.idle 0 (cfg0.grid.coords t) = false from rfl], after0]
    rw [show (dats m 0 c).leavesExact 1 t = owns (c : Thread nD τ) (ms1 t) fullShare ((dats m 0 c).after 1 t) from by
      unfold Dat.leavesExact; rw [show cfg0.idle 1 (cfg0.grid.coords t) = false from rfl], after1]
    rw [show (dats m 0 c).leavesExact 2 t = owns (c : Thread nD τ) (ms2 t) fullShare ((dats m 0 c).after 2 t) from by
      unfold Dat.leavesExact; rw [show cfg0.idle 2 (cfg0.grid.coords t) = false from rfl], after2]
    rw [show (dats m 0 c).leavesExact 3 t = owns (c : Thread nD τ) (ms3 t) fullShare ((dats m 0 c).after 3 t) from by
      unfold Dat.leavesExact; rw [show cfg0.idle 3 (cfg0.grid.coords t) = false from rfl], after3]
    rw [Dat.leavesExact_idle (dats m 0 c) 4 t (idleAt_out t hc1) (noFlush_out t hc1)]
    rw [outsAt_reset m c t h0 hc1]
    unfold accReset; (try dsimp only)
    have hΦ : (dats m 0 c).Φ t.castSucc ⊢ (iprop(∃ d, owns (c : Thread nD τ) accM fullShare d) : sProp 𝕄) := by
      rw [PhiS_castSucc m c t]
      by_cases hz : t.val = 0
      · rw [PhiS_zero m c _ _ hz, scopedRest_acc]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS := hΦ $$ HS
    iapply ((runReset c (grid0.coords t) _ _ _ _ _ _ _ _ _ _ _ _ hc0 hc1 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (coverReset c _ _ _ _ _ _ _ _ _ _ _ _ _ hc0 hc1 _ _ _ _)
    isplitl [Ho]; · iexact Ho
    isplitl [H0]; · iexact H0
    isplitl [H1]; · iexact H1
    isplitl [H2]; · iexact H2
    isplitl [H3]; · iexact H3
    iexists _; iexact H4
  · by_cases h1 : t.val % 3 = 2
    ·
      have hc0 : ¬condReset (grid0.coords t) := fun h => h0 ((hcondReset t).mp h)
      have hc1 : condOut (grid0.coords t) := (hcondOut t).mpr h1
      have hz : t.val ≠ 0 := by omega
      rw [show (dats m 0 c).leavesExact 0 t = owns (c : Thread nD τ) (ms0 t) fullShare ((dats m 0 c).after 0 t) from by
        unfold Dat.leavesExact; rw [show cfg0.idle 0 (cfg0.grid.coords t) = false from rfl], after0]
      rw [show (dats m 0 c).leavesExact 1 t = owns (c : Thread nD τ) (ms1 t) fullShare ((dats m 0 c).after 1 t) from by
        unfold Dat.leavesExact; rw [show cfg0.idle 1 (cfg0.grid.coords t) = false from rfl], after1]
      rw [show (dats m 0 c).leavesExact 2 t = owns (c : Thread nD τ) (ms2 t) fullShare ((dats m 0 c).after 2 t) from by
        unfold Dat.leavesExact; rw [show cfg0.idle 2 (cfg0.grid.coords t) = false from rfl], after2]
      rw [show (dats m 0 c).leavesExact 3 t = owns (c : Thread nD τ) (ms3 t) fullShare ((dats m 0 c).after 3 t) from by
        unfold Dat.leavesExact; rw [show cfg0.idle 3 (cfg0.grid.coords t) = false from rfl], after3]
      rw [show (dats m 0 c).leavesExact 4 t = owns (c : Thread nD τ) (ms4 t) fullShare ((dats m 0 c).after 4 t) from by
        unfold Dat.leavesExact; rw [liveAt_out t hc1], after4]
      rw [outsAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runOut c (grid0.coords t) _ _ _ _ _ _ _ _ _ _ _ _ hc0 hc1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (coverLast c _ _ _ _ _ _ _ _ _ _ _ _ _ hc0 hc1 _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ hc0 hc1 _ _ _ _ _)
    ·
      have hc0 : ¬condReset (grid0.coords t) := fun h => h0 ((hcondReset t).mp h)
      have hc1 : ¬condOut (grid0.coords t) := fun h => h1 ((hcondOut t).mp h)
      have hz : t.val ≠ 0 := by omega
      rw [show (dats m 0 c).leavesExact 0 t = owns (c : Thread nD τ) (ms0 t) fullShare ((dats m 0 c).after 0 t) from by
        unfold Dat.leavesExact; rw [show cfg0.idle 0 (cfg0.grid.coords t) = false from rfl], after0]
      rw [show (dats m 0 c).leavesExact 1 t = owns (c : Thread nD τ) (ms1 t) fullShare ((dats m 0 c).after 1 t) from by
        unfold Dat.leavesExact; rw [show cfg0.idle 1 (cfg0.grid.coords t) = false from rfl], after1]
      rw [show (dats m 0 c).leavesExact 2 t = owns (c : Thread nD τ) (ms2 t) fullShare ((dats m 0 c).after 2 t) from by
        unfold Dat.leavesExact; rw [show cfg0.idle 2 (cfg0.grid.coords t) = false from rfl], after2]
      rw [show (dats m 0 c).leavesExact 3 t = owns (c : Thread nD τ) (ms3 t) fullShare ((dats m 0 c).after 3 t) from by
        unfold Dat.leavesExact; rw [show cfg0.idle 3 (cfg0.grid.coords t) = false from rfl], after3]
      rw [Dat.leavesExact_idle (dats m 0 c) 4 t (idleAt_out t hc1) (noFlush_out t hc1)]
      rw [outsAt_add m c t h0 h1]
      unfold accAdd; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runAdd c (grid0.coords t) _ _ _ _ _ _ _ _ _ _ _ _ hc0 hc1 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (coverAdd c _ _ _ _ _ _ _ _ _ _ _ _ _ hc0 hc1 _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's named contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 192 := N_0; omega), scopedRest_acc]
  iintro H; iexists _; iexact H

end Cert.KernelIdeal.Hand

end
-- ==== Proof.KiLaunch.lean ====
/-
  The launch: the whole run of @main, for any float instance.

  The host operations before the region run over the unscoped buffers; the region is entered with the four arrays the
  windows read and write (the gathered rows, the stacked gate/up projection — read through TWO windows, each holding
  half of its share —, the down projection, the result) and the accumulator; after the region the fifteen later host
  operations run over the result array and the buffers that bypassed the region. Every final state has the result
  array at what the pipeline's write-backs left, every other unscoped buffer outside the windows' arrays at what
  the later operations computed from that, and the two projection arrays as they were.
-/
import proofs.«175903_j26096221290603_1_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-- The unscoped buffers that are no window's array. -/
abbrev restS : Finset (Ref sig .tc) := (Finset.univ.filter fun b : Ref sig .tc => ¬ b.isScoped) \ Finset.univ.image (Pipeline.arrRef spec0)

theorem v19_not_rest : main_v19 ∉ restS := fun h =>
  (Finset.mem_sdiff.mp h).2 (Finset.mem_image.mpr ⟨4, Finset.mem_univ _, rfl⟩)

/-- The buffers the later host operations run within: the result array and the bypassing buffers. -/
abbrev tailS : Finset (DevRef τ sig) := (insert main_v19 restS).map ⟨Proc.devRef (sig := sig) .tc, Proc.devRef_injective _⟩

/-- The buffer contents when the region is left: the result array at what the write-backs left, the rest as entered. -/
def Wexit (c : Dev nD) : Valuation τ sig (Elt F) :=
  Function.update (V0 m c) (Proc.devRef .tc main_v19) ((dats m 0 c).arrAt 4 cfg0.N)

/-- and after the later host operations. -/
def Wend (c : Dev nD) : Valuation τ sig (Elt F) := StableHlo.after hostOps1 (Wexit m c)

theorem held_tailS (c : Dev nD) (W : Valuation τ sig (Elt F)) :
    (StableHlo.held (c.tc : Thread nD τ) tailS W : sProp 𝕄)
      = iprop((((c.tc : Thread nD τ).loc main_v19) ↦{fullShare} W (Proc.devRef .tc main_v19))
          ∗ bigSep restS fun b => (((c.tc : Thread nD τ).loc b) ↦{fullShare} W (Proc.devRef .tc b) : sProp 𝕄)) := by
  unfold StableHlo.held tailS
  rw [bigSep_map, bigSep_insert v19_not_rest]
  rfl

/-- Each later host operation touches only the result array and the bypassing buffers. -/
theorem hostOps1_tailS : ∀ op ∈ (hostOps1 : List (HloOp τ sig (Elt F))), op.bufs ⊆ tailS := by
  intro op hop b hb
  have hu : b ∈ Pipeline.ucRefs τ sig := Pipeline.sub_ucRefs op ((List.forall_iff_forall_mem.mp hostOps1_sub) op hop) hb
  simp only [hostOps1, List.mem_cons, List.mem_nil_iff, or_false] at hop
  have hne : b ≠ Proc.devRef .tc main_v10 ∧ b ≠ Proc.devRef .tc main_arg3 ∧ b ≠ Proc.devRef .tc main_arg4 := by
    rcases hop with rfl | rfl | rfl | rfl | rfl | rfl | rfl | rfl | rfl | rfl | rfl | rfl | rfl | rfl | rfl <;>
      simp only [StableHlo.nullary_bufs, StableHlo.unary_bufs, StableHlo.binary_bufs, StableHlo.ternary_bufs, StableHlo.reshape_bufs,
        Finset.mem_insert, Finset.mem_singleton] at hb <;>
      (rcases hb with rfl | rfl | rfl | rfl) <;>
      exact ⟨StableHlo.devRef_ne_of_ne (by decide), StableHlo.devRef_ne_of_ne (by decide), StableHlo.devRef_ne_of_ne (by decide)⟩
  simp only [Pipeline.ucRefs, StableHlo.tcRefs, Finset.mem_filter, Finset.mem_map, Finset.mem_univ, true_and, Function.Embedding.coeFn_mk] at hu
  obtain ⟨⟨r, rfl⟩, hr⟩ := hu
  refine Finset.mem_map.mpr ⟨r, ?_, rfl⟩
  by_cases h19 : r = main_v19
  · exact h19 ▸ Finset.mem_insert_self _ _
  · refine Finset.mem_insert_of_mem (Finset.mem_sdiff.mpr ⟨Finset.mem_filter.mpr ⟨Finset.mem_univ _, hr⟩, fun hi => ?_⟩)
    obtain ⟨w, -, hw⟩ := Finset.mem_image.mp hi
    fin_cases w
    · exact hne.1 (congrArg _ hw.symm)
    · exact hne.2.1 (congrArg _ hw.symm)
    · exact hne.2.1 (congrArg _ hw.symm)
    · exact hne.2.2 (congrArg _ hw.symm)
    · exact h19 hw.symm

/-- No later host operation writes the result array. -/
theorem hostOps1_keeps_v19 : ∀ op ∈ (hostOps1 : List (HloOp τ sig (Elt F))), Proc.devRef .tc main_v19 ∉ op.writes := by
  intro op hop
  simp only [hostOps1, List.mem_cons, List.mem_nil_iff, or_false] at hop
  rcases hop with rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-! ## The arrays at the region's two ends -/

/-- The bypassing buffers, each whole at the contents `W`. -/
def restPts (c : Dev nD) (W : Valuation τ sig (Elt F)) : sProp 𝕄 :=
  bigSep restS fun b => (((c.tc : Thread nD τ).loc b) ↦{fullShare} W (Proc.devRef .tc b) : sProp 𝕄)

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The pipeline's arrays, window by window: the gathered rows, the two halves of the stacked projection's share, the
    down projection, the result. -/
theorem arrays_eq5 (c : Dev nD) (G : (w : Fin cfg0.W) → Buf (Elt F) ((cfg0.win w).arr.view.loc (c.tc : Thread nD τ))) :
    ((dats m 0 c).arrays G : sProp 𝕄)
      = iprop((((c.tc : Thread nD τ).loc main_v10) ↦{fullShare} G 0) ∗ (((c.tc : Thread nD τ).loc main_arg3) ↦{fullShare.left} G 1)
          ∗ (((c.tc : Thread nD τ).loc main_arg3) ↦{fullShare.right} G 2) ∗ (((c.tc : Thread nD τ).loc main_arg4) ↦{fullShare} G 3)
          ∗ (((c.tc : Thread nD τ).loc main_v19) ↦{fullShare} G 4)) := by
  unfold Dat.arrays
  rw [bigSep_W0, (arr_whole0 0).set_eq_univ, (arr_whole0 1).set_eq_univ, (arr_whole0 3).set_eq_univ,
    (arr_whole0 4).set_eq_univ, share0, share1, share2, share3, share4]

/-- The distinct buffers behind the windows' arrays, one by one. -/
theorem arrBufs_eq4 (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v10) ↦{fullShare} W main_v10) ∗ (((c.tc : Thread nD τ).loc main_arg3) ↦{fullShare} W main_arg3)
          ∗ (((c.tc : Thread nD τ).loc main_arg4) ↦{fullShare} W main_arg4) ∗ (((c.tc : Thread nD τ).loc main_v19) ↦{fullShare} W main_v19)) := by
  unfold Pipeline.arrBufs
  exact bigSep_eq_bigSepL_of_eq [main_v10, main_arg3, main_arg4, main_v19] (by decide) (by decide) _

/-- What the launch hands the region of the buffers behind the arrays makes the pipeline's arrays at entry: the
    stacked projection's full share split between the two windows that read it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrays_eq5, arrBufs_eq4]
  iintro ⟨H0, H3, H4, H19⟩
  ihave H3 := (pointsTo_share (PosShare.mem_left_op_right fullShare)).1 $$ H3
  icases H3 with ⟨H3l, H3r⟩
  isplitl [H0]; · iexact H0
  isplitl [H3l]; · iexact H3l
  isplitl [H3r]; · iexact H3r
  isplitl [H4]; · iexact H4
  iexact H19

/-! ## The host operations after the region -/

theorem Wexit_v19 (c : Dev nD) : Wexit m c (Proc.devRef .tc main_v19) = (dats m 0 c).arrAt 4 cfg0.N := by
  unfold Wexit; exact Function.update_self _ _ _

theorem Wexit_rest (c : Dev nD) (b : Ref sig .tc) (hb : b ∈ restS) : Wexit m c (Proc.devRef .tc b) = V0 m c (Proc.devRef .tc b) := by
  unfold Wexit
  exact Function.update_of_ne (StableHlo.devRef_ne_of_ne (fun e => v19_not_rest (by rw [← e]; exact hb))) _ _

theorem Wend_v19 (c : Dev nD) : Wend m c (Proc.devRef .tc main_v19) = (dats m 0 c).arrAt 4 cfg0.N := by
  unfold Wend
  exact (StableHlo.after_of_forall_not_mem _ _ hostOps1_keeps_v19).trans (Wexit_v19 m c)

theorem held_exit (c : Dev nD) :
    (StableHlo.held (c.tc : Thread nD τ) tailS (Wexit m c) : sProp 𝕄)
      = iprop((((c.tc : Thread nD τ).loc main_v19) ↦{fullShare} (dats m 0 c).arrAt 4 cfg0.N) ∗ restPts c (V0 m c)) := by
  refine (held_tailS c (Wexit m c)).trans ?_
  rw [Wexit_v19]
  unfold restPts
  rw [bigSep_congr (fun b hb => by rw [Wexit_rest m c b hb])]

theorem held_end (c : Dev nD) :
    (StableHlo.held (c.tc : Thread nD τ) tailS (Wend m c) : sProp 𝕄)
      = iprop((((c.tc : Thread nD τ).loc main_v19) ↦{fullShare} (dats m 0 c).arrAt 4 cfg0.N) ∗ restPts c (Wend m c)) := by
  refine (held_tailS c (Wend m c)).trans ?_
  rw [Wend_v19]
  rfl

set_option backward.isDefEq.respectTransparency.types false in
/-- From the region's exit — the arrays at their final contents, the bypassing buffers as entered — the later host
    operations run within the result array and the bypassing buffers and hand back the arrays as they were and the
    bypassing buffers at what the operations computed. -/
theorem tail (c : Dev nD) (Q' : PUnit → sProp 𝕄) :
    iprop((iprop((dats m 0 c).arrays ((dats m 0 c).arrAt · cfg0.N) ∗ restPts c (Wend m c)) -∗ Q' ⟨⟩)
        ∗ boundary (c.tc : Thread nD τ) ∗ (dats m 0 c).arrays ((dats m 0 c).arrAt · cfg0.N) ∗ restPts c (V0 m c))
      ⊢ wp frame (wpE (Pipeline.defs (pcfgs (F := F)) defs₀) (Variants.lift Variants.none) (c.tc : Thread nD τ) none) Set.univ
          (chain (([hostOps1] : List (List (HloOp τ sig (Elt F)))).map StableHlo.seq ++ [])) Q' := by
  rw [arrays_eq5]
  iintro ⟨Hk, Hb, ⟨H0, H1, H2, H3, H19⟩, HZ⟩
  ihave Hh := (Entails.of_eq (held_exit m c).symm) $$ [H19 HZ]
  · isplitl [H19] <;> iassumption
  iapply (Pipeline.wp_seqs_then (pcfgs (F := F)) defs₀ Variants.none c tailS [] [hostOps1]
    (fun ops ho op h => by rw [List.mem_singleton.mp ho] at h; exact hostOps1_tailS op h)
    (fun ops ho op h => by rw [List.mem_singleton.mp ho] at h; exact (List.forall_iff_forall_mem.mp hostOps1_fresh) op h) (Wexit m c)) $$ [Hb Hh]
  · isplitl [Hb] <;> iassumption
  iintro Hb
  rw [Pipeline.chain_nil, wp_pure]
  imodintro
  iapply Hk
  icases Hb with ⟨-, Hh⟩
  ihave Hh := (Entails.of_eq (show (StableHlo.held (c.tc : Thread nD τ) tailS (StableHlo.after (List.flatten [hostOps1]) (Wexit m c)) : sProp 𝕄)
      = iprop((((c.tc : Thread nD τ).loc main_v19) ↦{fullShare} (dats m 0 c).arrAt 4 cfg0.N) ∗ restPts c (Wend m c)) from by
    rw [List.flatten_cons, List.flatten_nil, List.append_nil]; exact held_end m c)) $$ Hh
  icases Hh with ⟨H19, HZ⟩
  isplitr [HZ]
  · isplitl [H0]; · iexact H0
    isplitl [H1]; · iexact H1
    isplitl [H2]; · iexact H2
    isplitl [H3]; · iexact H3
    iexact H19
  · iexact HZ

/-- The launch's bypassing buffers at the region-entry contents. -/
theorem rest_eq (c : Dev nD) :
    (Pipeline.unscopedRest (Ix := Unit) (Name := ℕ) (U := UR sig nD τ) (Lvl := ℕ) spec0 c (V m c) : sProp 𝕄) = restPts c (V0 m c) := by
  unfold Pipeline.unscopedRest restPts; rfl

/-! ## The run -/

/-- The physical post: every windowed array at what the write-backs left, every bypassing buffer at what the later host
    operations computed. -/
def QC : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ restS, r.2.mem ((c.tc : Thread nD τ).loc b) = Wend m c (Proc.devRef .tc b)

set_option maxHeartbeats 4000000 in
set_option backward.isDefEq.respectTransparency.types false in
theorem run_main : θ_run defs (onTc (τ := τ) (main (F := F))) ⟨m, fun _ => 0, ρ⟩ (QC m) :=
  Pipeline.θ_run_region_noSem_pf_tail (pcfgs (F := F)) (fun p => (cfgs p).toPCfg_adm) (dats m) () cellOf_inj (0 : Fin 1) winFacts₀0
    (Pipeline.PreFacts.none _) emb₁ defs₀ Variants.none m ρ main (fun _ => chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp)) (Z := fun c => restPts c (V0 m c)) (Z' := fun c => restPts c (Wend m c))
    (hX := fun c => by
      rw [Pipeline.unscopedRestP_none]
      refine (show (Pipeline.unscopedRest (Ix := Unit) (Name := ℕ) (U := UR sig nD τ) (Lvl := ℕ) spec0 c (V m c) : sProp 𝕄) ⊢ _ from ?_)
      refine (Entails.of_eq (rest_eq m c)).trans ?_
      iintro H
      isplitr; · iempintro
      iexact H)
    (hin := fun c => by
      iintro ⟨-, -, Hr⟩
      iapply (hin m c); iexact Hr)
    (hout := fun c => (hout m c).trans (by
      iintro H
      isplitr; · iempintro
      iexact H))
    (htail := fun c Q' => tail m c Q')
    (QY := fun c s => ∀ b ∈ restS, s.mem ((c.tc : Thread nD τ).loc b) = Wend m c (Proc.devRef .tc b))
    (hY := fun c s' => by
      iintro ⟨-, HU, HSI⟩
      unfold restPts
      imodintro
      iapply (pointsTo_read_all restS (fun b => (c.tc : Thread nD τ).loc b) (fun b => Wend m c (Proc.devRef .tc b)) s')
      isplitl [HU] <;> iassumption)
    (hQ := fun s h c => ⟨(h c).1, (h c).2.2⟩)

end Cert.KernelIdeal.Hand

end
-- ==== Proof.RefRun.lean ====
/-
  The reference program's run. Its @main is a straight line of host operations: the three module-local
  functions it calls (the stable argsort, the floor division by 8 with its select, the logistic gate) are
  written out at their call sites over each call's own buffers, so the whole program is one list and its
  run is the fold of that list over the launch contents. The value left in the result buffer is stated as a
  composition of six named stages — the sort order, the token of each sorted slot, the gathered rows, the
  gathered weights, the expert computation, and the weighted scatter — each the printed operations applied
  to its inputs and nothing else.
-/
import proofs.«175903_j26096221290603_1_alg».proof.Defs
import proofs.«175903_j26096221290603_1_alg».proof.Proof.Gen.ReferenceIdeal
import proofs.«175903_j26096221290603_1_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 71 operations in order, each callee's operations at its call site. -/
abbrev ops : List (HloOp τ sig (Elt F)) :=
  [
    reshape main_arg1 main_v0 rfl shapeCasts_S2048x8_S16384,
    TRef.nullary main_call0.v0 (iotaInDim S16384 32 0),
    TRef.binary (.of main_v0 : StableHlo.TRef sig ⟨S16384, .i32⟩) main_call0.v0 main_call0.v1_0 (fun x y => (Host.sort2 S16384 0 comparator_i32_i32_d0 x y).1),
    TRef.binary (.of main_v0 : StableHlo.TRef sig ⟨S16384, .i32⟩) main_call0.v0 main_call0.v1_1 (fun x y => (Host.sort2 S16384 0 comparator_i32_i32_d0 x y).2),
    nullary main_c (constantI S_ 32 8#32),
    TRef.unary (.of main_c : StableHlo.TRef sig ⟨S_, .i32⟩) main_call1.v0 id,
    TRef.unary main_call1.v0 main_call1.v1 (broadcastInDim S16384 ![] bcast_S_S16384),
    TRef.binary (.of main_v1 : StableHlo.TRef sig ⟨S16384, .i32⟩) main_call1.v1 main_call1.v2 Host.divsi,
    TRef.unary (.of main_v1 : StableHlo.TRef sig ⟨S16384, .i32⟩) main_call1.v3 signi,
    TRef.unary main_call1.v0 main_call1.v4 signi,
    TRef.unary main_call1.v4 main_call1.v5 (broadcastInDim S16384 ![] bcast_S_S16384),
    TRef.binary main_call1.v3 main_call1.v5 main_call1.v6 (cmpi .ne),
    TRef.unary main_call1.v0 main_call1.v7 (broadcastInDim S16384 ![] bcast_S_S16384),
    TRef.binary (.of main_v1 : StableHlo.TRef sig ⟨S16384, .i32⟩) main_call1.v7 main_call1.v8 Host.remsi,
    TRef.nullary main_call1.c (constantI S_ 32 0#32),
    TRef.unary main_call1.c main_call1.v9 (broadcastInDim S16384 ![] bcast_S_S16384),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16384 ![] bcast_S_S16384),
    TRef.binary main_call1.v2 main_call1.v12 main_call1.v13 subi,
    TRef.ternary main_call1.v11 main_call1.v13 main_call1.v2 main_call1.call0.v0 select,
    nullary main_c_0 (constantI S_ 32 0#32),
    unary main_c_0 main_v3 (broadcastInDim S16384 ![] bcast_S_S16384 : (⟨S_, .i32⟩ : BufTy).Contents (Elt F) → (⟨S16384, .i32⟩ : BufTy).Contents (Elt F)),
    binary main_v2 main_v3 main_v4 (cmpi .slt : (⟨S16384, .i32⟩ : BufTy).Contents (Elt F) → (⟨S16384, .i32⟩ : BufTy).Contents (Elt F) → (⟨S16384, .i1⟩ : BufTy).Contents (Elt F)),
    nullary main_c_1 (constantI S_ 32 2048#32),
    unary main_c_1 main_v5 (broadcastInDim S16384 ![] bcast_S_S16384 : (⟨S_, .i32⟩ : BufTy).Contents (Elt F) → (⟨S16384, .i32⟩ : BufTy).Contents (Elt F)),
    binary main_v2 main_v5 main_v6 (addi : (⟨S16384, .i32⟩ : BufTy).Contents (Elt F) → (⟨S16384, .i32⟩ : BufTy).Contents (Elt F) → (⟨S16384, .i32⟩ : BufTy).Contents (Elt F)),
    ternary main_v4 main_v6 main_v2 main_v7 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v7 main_v8 (broadcastInDim S16384x1 ![0] bcast_S16384_S16384x1_0 : (⟨S16384, .i32⟩ : BufTy).Contents (Elt F) → (⟨S16384x1, .i32⟩ : BufTy).Contents (Elt F)),
    binary main_arg0 main_v8 main_v9 ((fun x i => Host.gather gather_S2048x2048_S16384x1_S16384x2048_1_0_n_n_0_1_12048 x i) : (⟨S2048x2048, .f32⟩ : BufTy).Contents (Elt F) → (⟨S16384x1, .i32⟩ : BufTy).Contents (Elt F) → (⟨S16384x2048, .f32⟩ : BufTy).Contents (Elt F)),
    reshape main_v9 main_v10 rfl shapeCasts_S16384x2048_S64x256x2048,
    binary main_v10 main_arg3 main_v11 ((fun l r => Host.dotGeneral dot_S64x256x2048_S64x1536x2048_S64x256x1536_2_2_1_1_0_0 none l r) : (⟨S64x256x2048, .f32⟩ : BufTy).Contents (Elt F) → (⟨S64x1536x2048, .f32⟩ : BufTy).Contents (Elt F) → (⟨S64x256x1536, .f32⟩ : BufTy).Contents (Elt F)),
    unary main_v11 main_v12 ((extractStridedSlice S64x256x768 ![0, 0, 0] · slices_S64x256x1536_S64x256x768_0_0_0) : (⟨S64x256x1536, .f32⟩ : BufTy).Contents (Elt F) → (⟨S64x256x768, .f32⟩ : BufTy).Contents (Elt F)),
    unary main_v11 main_v13 ((extractStridedSlice S64x256x768 ![0, 0, 768] · slices_S64x256x1536_S64x256x768_0_0_768) : (⟨S64x256x1536, .f32⟩ : BufTy).Contents (Elt F) → (⟨S64x256x768, .f32⟩ : BufTy).Contents (Elt F)),
    TRef.unary (.of main_v12 : StableHlo.TRef sig ⟨S64x256x768, .f32⟩) main_call2.v0 Host.negf,
    TRef.unary main_call2.v0 main_call2.v1 Host.exp,
    TRef.nullary main_call2.cst (constant S_ .f32 0x3F800000#32),
    TRef.unary main_call2.cst main_call2.v2 (broadcastInDim S64x256x768 ![] bcast_S_S64x256x768),
    TRef.binary main_call2.v2 main_call2.v1 main_call2.v3 addf,
    TRef.nullary main_call2.cst_0 (constant S_ .f32 0x3F800000#32),
    TRef.unary main_call2.cst_0 main_call2.v4 (broadcastInDim S64x256x768 ![] bcast_S_S64x256x768),
    TRef.binary main_call2.v4 main_call2.v3 main_call2.v5 Host.divf,
    TRef.binary (.of main_v12 : StableHlo.TRef sig ⟨S64x256x768, .f32⟩) main_call2.v5 main_call2.v6 mulf,
    binary main_v14 main_v13 main_v15 (mulf : (⟨S64x256x768, .f32⟩ : BufTy).Contents (Elt F) → (⟨S64x256x768, .f32⟩ : BufTy).Contents (Elt F) → (⟨S64x256x768, .f32⟩ : BufTy).Contents (Elt F)),
    binary main_v15 main_arg4 main_v16 ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F)),
    reshape main_arg2 main_v17 rfl shapeCasts_S2048x8_S16384,
    nullary main_c_2 (constantI S_ 32 0#32),
    unary main_c_2 main_v18 (broadcastInDim S16384 ![] bcast_S_S16384 : (⟨S_, .i32⟩ : BufTy).Contents (Elt F) → (⟨S16384, .i32⟩ : BufTy).Contents (Elt F)),
    binary main_v1 main_v18 main_v19 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v20 (broadcastInDim S16384 ![] bcast_S_S16384 : (⟨S_, .i32⟩ : BufTy).Contents (Elt F) → (⟨S16384, .i32⟩ : BufTy).Contents (Elt F)),
    binary main_v1 main_v20 main_v21 (addi : (⟨S16384, .i32⟩ : BufTy).Contents (Elt F) → (⟨S16384, .i32⟩ : BufTy).Contents (Elt F) → (⟨S16384, .i32⟩ : BufTy).Contents (Elt F)),
    ternary main_v19 main_v21 main_v1 main_v22 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v22 main_v23 (broadcastInDim S16384x1 ![0] bcast_S16384_S16384x1_0 : (⟨S16384, .i32⟩ : BufTy).Contents (Elt F) → (⟨S16384x1, .i32⟩ : BufTy).Contents (Elt F)),
    binary main_v17 main_v23 main_v24 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    reshape main_v16 main_v25 rfl shapeCasts_S64x256x2048_S16384x2048,
    unary main_v24 main_v26 (broadcastInDim S16384x1 ![0] bcast_S16384_S16384x1_0 : (⟨S16384, .f32⟩ : BufTy).Contents (Elt F) → (⟨S16384x1, .f32⟩ : BufTy).Contents (Elt F)),
    unary main_v26 main_v27 (broadcastInDim S16384x2048 ![0, 1] bcast_S16384x1_S16384x2048_0_1 : (⟨S16384x1, .f32⟩ : BufTy).Contents (Elt F) → (⟨S16384x2048, .f32⟩ : BufTy).Contents (Elt F)),
    binary main_v25 main_v27 main_v28 (mulf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    unary main_cst main_v29 (broadcastInDim S2048x2048 ![] bcast_S_S2048x2048 : (⟨S_, .f32⟩ : BufTy).Contents (Elt F) → (⟨S2048x2048, .f32⟩ : BufTy).Contents (Elt F)),
    nullary main_c_4 (constantI S_ 32 0#32),
    unary main_c_4 main_v30 (broadcastInDim S16384 ![] bcast_S_S16384 : (⟨S_, .i32⟩ : BufTy).Contents (Elt F) → (⟨S16384, .i32⟩ : BufTy).Contents (Elt F)),
    binary main_v2 main_v30 main_v31 (cmpi .slt : (⟨S16384, .i32⟩ : BufTy).Contents (Elt F) → (⟨S16384, .i32⟩ : BufTy).Contents (Elt F) → (⟨S16384, .i1⟩ : BufTy).Contents (Elt F)),
    nullary main_c_5 (constantI S_ 32 2048#32),
    unary main_c_5 main_v32 (broadcastInDim S16384 ![] bcast_S_S16384 : (⟨S_, .i32⟩ : BufTy).Contents (Elt F) → (⟨S16384, .i32⟩ : BufTy).Contents (Elt F)),
    binary main_v2 main_v32 main_v33 (addi : (⟨S16384, .i32⟩ : BufTy).Contents (Elt F) → (⟨S16384, .i32⟩ : BufTy).Contents (Elt F) → (⟨S16384, .i32⟩ : BufTy).Contents (Elt F)),
    ternary main_v31 main_v33 main_v2 main_v34 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v34 main_v35 (broadcastInDim S16384x1 ![0] bcast_S16384_S16384x1_0 : (⟨S16384, .i32⟩ : BufTy).Contents (Elt F) → (⟨S16384x1, .i32⟩ : BufTy).Contents (Elt F)),
    ternary main_v29 main_v35 main_v28 main_v36 ((fun x i u => Host.scatterAdd scatter_S2048x2048_S16384x1_S16384x2048_1_0_0_1 x i u) : (⟨S2048x2048, .f32⟩ : BufTy).Contents (Elt F) → (⟨S16384x1, .i32⟩ : BufTy).Contents (Elt F) → (⟨S16384x2048, .f32⟩ : BufTy).Contents (Elt F) → (⟨S2048x2048, .f32⟩ : BufTy).Contents (Elt F)) ]

-- seventy-one steps compared one by one, the callees' bodies opened at their calls
set_option maxRecDepth 8192 in
set_option maxHeartbeats 4000000 in
/-- @main is that straight line: with the callees unfolded at their calls, both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

/-- From any memory with zero counters every weakly fair execution of @main terminates, each buffer ending at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages of the value -/

/-- The stable argsort of the flattened expert indices: the second component of sorting the pairs (index, position)
    by index. -/
def refOrder (a1 : IVec S2048x8 32) : IVec S16384 32 :=
  (Host.sort2 S16384 0 comparator_i32_i32_d0 (shapeCast S16384 a1 shapeCasts_S2048x8_S16384) (iotaInDim S16384 32 0)).2

/-- The quotient rounded toward minus infinity, as the program computes it: the truncated quotient, less one where
    the signs of dividend and divisor differ and the remainder is not zero. -/
def floorDiv (x : IVec S16384 32) (d : IVec S_ 32) : IVec S16384 32 :=
  select
    (andi (cmpi .ne (signi x) (broadcastInDim S16384 ![] bcast_S_S16384 (signi d)))
      (cmpi .ne (Host.remsi x (broadcastInDim S16384 ![] bcast_S_S16384 d))
        (broadcastInDim S16384 ![] bcast_S_S16384 (constantI S_ 32 0#32))))
    (subi (Host.divsi x (broadcastInDim S16384 ![] bcast_S_S16384 d))
      (broadcastInDim S16384 ![] bcast_S_S16384 (constantI S_ 32 1#32)))
    (Host.divsi x (broadcastInDim S16384 ![] bcast_S_S16384 d))

/-- An index read modulo the axis it addresses: a negative one has the extent `n` added. -/
def wrap (x : IVec S16384 32) (n : BitVec 32) : IVec S16384 32 :=
  select (cmpi .slt x (broadcastInDim S16384 ![] bcast_S_S16384 (constantI S_ 32 0#32)))
    (addi x (broadcastInDim S16384 ![] bcast_S_S16384 (constantI S_ 32 n))) x

/-- The token of each sorted slot: the slot's position in the flattened index array, divided by 8. -/
def refTok (a1 : IVec S2048x8 32) : IVec S16384 32 :=
  floorDiv (refOrder a1) (constantI S_ 32 8#32)

/-- The rows of the activations at the sorted slots' tokens, grouped by expert. -/
def refXs (a0 : FVec F S2048x2048 .f32) (a1 : IVec S2048x8 32) : FVec F S64x256x2048 .f32 :=
  shapeCast S64x256x2048
    (Host.gather gather_S2048x2048_S16384x1_S16384x2048_1_0_n_n_0_1_12048 a0
      (broadcastInDim S16384x1 ![0] bcast_S16384_S16384x1_0 (wrap (refTok a1) 2048#32)))
    shapeCasts_S16384x2048_S64x256x2048

/-- The routing weights at the sorted slots. -/
def refW (a1 : IVec S2048x8 32) (a2 : FVec F S2048x8 .f32) : FVec F S16384 .f32 :=
  Host.gather gather_S16384_S16384x1_S16384_n_0_n_n_0_1_1 (shapeCast S16384 a2 shapeCasts_S2048x8_S16384)
    (broadcastInDim S16384x1 ![0] bcast_S16384_S16384x1_0 (wrap (refOrder a1) 16384#32))

/-- `x · 1 / (1 + exp (-x))`, element by element. -/
def silu (x : FVec F S64x256x768 .f32) : FVec F S64x256x768 .f32 :=
  mulf x (Host.divf (broadcastInDim S64x256x768 ![] bcast_S_S64x256x768 (constant S_ .f32 0x3F800000#32))
    (addf (broadcastInDim S64x256x768 ![] bcast_S_S64x256x768 (constant S_ .f32 0x3F800000#32)) (Host.exp (Host.negf x))))

/-- The two stacked projections of the gathered rows. -/
def refGU (xs : FVec F S64x256x2048 .f32) (a3 : FVec F S64x1536x2048 .f32) : FVec F S64x256x1536 .f32 :=
  Host.dotGeneral dot_S64x256x2048_S64x1536x2048_S64x256x1536_2_2_1_1_0_0 none xs a3

/-- Each expert's output rows: the gated product of the two halves of the projection, against the down projection. -/
def refY (xs : FVec F S64x256x2048 .f32) (a3 : FVec F S64x1536x2048 .f32) (a4 : FVec F S64x2048x768 .f32) :
    FVec F S64x256x2048 .f32 :=
  Host.dotGeneral dot_S64x256x768_S64x2048x768_S64x256x2048_2_2_1_1_0_0 none
    (mulf (silu (extractStridedSlice S64x256x768 ![0, 0, 0] (refGU xs a3) slices_S64x256x1536_S64x256x768_0_0_0))
      (extractStridedSlice S64x256x768 ![0, 0, 768] (refGU xs a3) slices_S64x256x1536_S64x256x768_0_0_768))
    a4

/-- The rows, each scaled by its slot's weight, added into the rows of a zero array at the slots' tokens. -/
def refTail (tok : IVec S16384 32) (w : FVec F S16384 .f32) (y : FVec F S64x256x2048 .f32) : FVec F S2048x2048 .f32 :=
  Host.scatterAdd scatter_S2048x2048_S16384x1_S16384x2048_1_0_0_1
    (broadcastInDim S2048x2048 ![] bcast_S_S2048x2048 (constant S_ .f32 0x00000000#32))
    (broadcastInDim S16384x1 ![0] bcast_S16384_S16384x1_0 (wrap tok 2048#32))
    (mulf (shapeCast S16384x2048 y shapeCasts_S64x256x2048_S16384x2048)
      (broadcastInDim S16384x2048 ![0, 1] bcast_S16384x1_S16384x2048_0_1 (broadcastInDim S16384x1 ![0] bcast_S16384_S16384x1_0 w)))

/-- The reference's result as a function of its five arguments. -/
def refResult (a0 : FVec F S2048x2048 .f32) (a1 : IVec S2048x8 32) (a2 : FVec F S2048x8 .f32)
    (a3 : FVec F S64x1536x2048 .f32) (a4 : FVec F S64x2048x768 .f32) : FVec F S2048x2048 .f32 :=
  refTail (refTok a1) (refW a1 a2) (refY (refXs a0 a1) a3 a4)

/-! ## The fold at the result and at the arguments -/

-- the sort, the gathers, the contractions and the scatter are folds and searches over their operands' elements; the
-- equation never looks inside them, so they stay closed while the chain of results is opened
attribute [local irreducible] Host.sort2 Host.gather Host.scatterAdd in
set_option maxRecDepth 8192 in
set_option maxHeartbeats 2000000 in
/-- The fold at the result buffer is the six stages composed: each operation's result at its own buffer is its
    function of its operands' contents, and at any other buffer what was there. -/
theorem out_eq (V : Valuation τ sig (Elt F)) :
    after ops V (main_v36 : DevRef τ sig)
      = refResult (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On every device, for any float values, from any memory with zero counters: every weakly fair execution of @main
    terminates with the result buffer at `refResult` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v36).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

/-- The reference runs and leaves its arguments as they were: the run with the result dropped. -/
theorem frame : Cert.frame_ReferenceIdeal := fun m ρ _ =>
  (θ_run _ _ _).mono (fun _ h c => (h c).2) (run (F := Ideal) m ρ)

end Cert.ReferenceIdeal.RefRun

end
-- ==== Proof.KiHost.lean ====
/-
  The host side of the expert kernel's program, stage by stage, and its agreement with the reference's.

  Before the region @main flattens the index array, sorts it stably, divides the sorted positions by 8 to get each
  slot's token, and gathers the token rows and the routing weights at the slots; after the region it scales each
  produced row by its slot's weight and adds the rows into a zero array at the slots' tokens. Each stage is stated as
  the printed operations applied to its inputs. The reference program prints the same operations for these stages,
  over dimension records with the same data, so the stages of the two programs are the same functions.
-/
import proofs.«175903_j26096221290603_1_alg».proof.Proof.KiBase
import proofs.«175903_j26096221290603_1_alg».proof.Proof.RefRun

noncomputable section

namespace Cert.KernelIdeal.HostValue

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! ## The stages of the host side -/

/-- The stable argsort of the flattened expert indices: the second component of sorting the pairs (index, position)
    by index. -/
def kerOrder (a1 : IVec S2048x8 32) : IVec S16384 32 :=
  (Host.sort2 S16384 0 comparator_i32_i32_d0 (shapeCast S16384 a1 shapeCasts_S2048x8_S16384) (iotaInDim S16384 32 0)).2

/-- The quotient rounded toward minus infinity, as the program computes it: the truncated quotient, less one where
    the signs of dividend and divisor differ and the remainder is not zero. -/
def kerFloorDiv (x : IVec S16384 32) (d : IVec S_ 32) : IVec S16384 32 :=
  select
    (andi (cmpi .ne (signi x) (broadcastInDim S16384 ![] bcast_S_S16384 (signi d)))
      (cmpi .ne (Host.remsi x (broadcastInDim S16384 ![] bcast_S_S16384 d))
        (broadcastInDim S16384 ![] bcast_S_S16384 (constantI S_ 32 0#32))))
    (subi (Host.divsi x (broadcastInDim S16384 ![] bcast_S_S16384 d))
      (broadcastInDim S16384 ![] bcast_S_S16384 (constantI S_ 32 1#32)))
    (Host.divsi x (broadcastInDim S16384 ![] bcast_S_S16384 d))

/-- An index read modulo the axis it addresses: a negative one has the extent `n` added. -/
def kerWrap (x : IVec S16384 32) (n : BitVec 32) : IVec S16384 32 :=
  select (cmpi .slt x (broadcastInDim S16384 ![] bcast_S_S16384 (constantI S_ 32 0#32)))
    (addi x (broadcastInDim S16384 ![] bcast_S_S16384 (constantI S_ 32 n))) x

/-- The token of each sorted slot: the slot's position in the flattened index array, divided by 8. -/
def kerTok (a1 : IVec S2048x8 32) : IVec S16384 32 :=
  kerFloorDiv (kerOrder a1) (constantI S_ 32 8#32)

/-- The rows of the activations at the sorted slots' tokens, grouped by expert. -/
def kerXs (a0 : FVec F S2048x2048 .f32) (a1 : IVec S2048x8 32) : FVec F S64x256x2048 .f32 :=
  shapeCast S64x256x2048
    (Host.gather gather_S2048x2048_S16384x1_S16384x2048_1_0_n_n_0_1_12048 a0
      (broadcastInDim S16384x1 ![0] bcast_S16384_S16384x1_0 (kerWrap (kerTok a1) 2048#32)))
    shapeCasts_S16384x2048_S64x256x2048

/-- The routing weights at the sorted slots. -/
def kerW (a1 : IVec S2048x8 32) (a2 : FVec F S2048x8 .f32) : FVec F S16384 .f32 :=
  Host.gather gather_S16384_S16384x1_S16384_n_0_n_n_0_1_1 (shapeCast S16384 a2 shapeCasts_S2048x8_S16384)
    (broadcastInDim S16384x1 ![0] bcast_S16384_S16384x1_0 (kerWrap (kerOrder a1) 16384#32))

/-- The rows, each scaled by its slot's weight, added into the rows of a zero array at the slots' tokens. -/
def kerTail (tok : IVec S16384 32) (w : FVec F S16384 .f32) (y : FVec F S64x256x2048 .f32) : FVec F S2048x2048 .f32 :=
  Host.scatterAdd scatter_S2048x2048_S16384x1_S16384x2048_1_0_0_1
    (broadcastInDim S2048x2048 ![] bcast_S_S2048x2048 (constant S_ .f32 0x00000000#32))
    (broadcastInDim S16384x1 ![0] bcast_S16384_S16384x1_0 (kerWrap tok 2048#32))
    (mulf (shapeCast S16384x2048 y shapeCasts_S64x256x2048_S16384x2048)
      (broadcastInDim S16384x2048 ![0, 1] bcast_S16384x1_S16384x2048_0_1 (broadcastInDim S16384x1 ![0] bcast_S16384_S16384x1_0 w)))

/-! ## The fold of the operations before the region, at the buffers the region and the later operations read -/

attribute [local irreducible] Host.sort2 Host.gather Host.scatterAdd in
set_option maxRecDepth 8192 in
set_option maxHeartbeats 2000000 in
theorem pre_tok (W : Valuation τ sig (Elt F)) :
    StableHlo.after (List.flatten (preOps (F := F))) W (Proc.devRef .tc main_v2) = kerTok (W (Proc.devRef .tc main_arg1)) := by
  simp only [preOps, List.flatten_cons, List.flatten_nil, List.append_nil, List.cons_append, List.nil_append]
  after_results_simp
  rfl

attribute [local irreducible] Host.sort2 Host.gather Host.scatterAdd in
set_option maxRecDepth 8192 in
set_option maxHeartbeats 2000000 in
theorem pre_xs (W : Valuation τ sig (Elt F)) :
    StableHlo.after (List.flatten (preOps (F := F))) W (Proc.devRef .tc main_v10) = kerXs (W (Proc.devRef .tc main_arg0)) (W (Proc.devRef .tc main_arg1)) := by
  simp only [preOps, List.flatten_cons, List.flatten_nil, List.append_nil, List.cons_append, List.nil_append]
  after_results_simp
  rfl

attribute [local irreducible] Host.sort2 Host.gather Host.scatterAdd in
set_option maxRecDepth 8192 in
set_option maxHeartbeats 2000000 in
theorem pre_w (W : Valuation τ sig (Elt F)) :
    StableHlo.after (List.flatten (preOps (F := F))) W (Proc.devRef .tc main_v18) = kerW (W (Proc.devRef .tc main_arg1)) (W (Proc.devRef .tc main_arg2)) := by
  simp only [preOps, List.flatten_cons, List.flatten_nil, List.append_nil, List.cons_append, List.nil_append]
  after_results_simp
  rfl

attribute [local irreducible] Host.sort2 Host.gather Host.scatterAdd in
set_option maxRecDepth 8192 in
set_option maxHeartbeats 2000000 in
theorem pre_arg0 (W : Valuation τ sig (Elt F)) :
    StableHlo.after (List.flatten (preOps (F := F))) W (Proc.devRef .tc main_arg0) = W (Proc.devRef .tc main_arg0) := by
  simp only [preOps, List.flatten_cons, List.flatten_nil, List.append_nil, List.cons_append, List.nil_append]
  after_results_simp

attribute [local irreducible] Host.sort2 Host.gather Host.scatterAdd in
set_option maxRecDepth 8192 in
set_option maxHeartbeats 2000000 in
theorem pre_arg1 (W : Valuation τ sig (Elt F)) :
    StableHlo.after (List.flatten (preOps (F := F))) W (Proc.devRef .tc main_arg1) = W (Proc.devRef .tc main_arg1) := by
  simp only [preOps, List.flatten_cons, List.flatten_nil, List.append_nil, List.cons_append, List.nil_append]
  after_results_simp

attribute [local irreducible] Host.sort2 Host.gather Host.scatterAdd in
set_option maxRecDepth 8192 in
set_option maxHeartbeats 2000000 in
theorem pre_arg2 (W : Valuation τ sig (Elt F)) :
    StableHlo.after (List.flatten (preOps (F := F))) W (Proc.devRef .tc main_arg2) = W (Proc.devRef .tc main_arg2) := by
  simp only [preOps, List.flatten_cons, List.flatten_nil, List.append_nil, List.cons_append, List.nil_append]
  after_results_simp

attribute [local irreducible] Host.sort2 Host.gather Host.scatterAdd in
set_option maxRecDepth 8192 in
set_option maxHeartbeats 2000000 in
theorem pre_arg3 (W : Valuation τ sig (Elt F)) :
    StableHlo.after (List.flatten (preOps (F := F))) W (Proc.devRef .tc main_arg3) = W (Proc.devRef .tc main_arg3) := by
  simp only [preOps, List.flatten_cons, List.flatten_nil, List.append_nil, List.cons_append, List.nil_append]
  after_results_simp

attribute [local irreducible] Host.sort2 Host.gather Host.scatterAdd in
set_option maxRecDepth 8192 in
set_option maxHeartbeats 2000000 in
theorem pre_arg4 (W : Valuation τ sig (Elt F)) :
    StableHlo.after (List.flatten (preOps (F := F))) W (Proc.devRef .tc main_arg4) = W (Proc.devRef .tc main_arg4) := by
  simp only [preOps, List.flatten_cons, List.flatten_nil, List.append_nil, List.cons_append, List.nil_append]
  after_results_simp

variable (m : (ℓ : Loc nD τ sig) → Buf (Elt F) ℓ)

/-- When the region is entered the token buffer holds each sorted slot's token. -/
theorem V_tok (c : Dev nD) : V m c main_v2 = kerTok (m ((c.tc : Thread nD τ).loc main_arg1)) := pre_tok _
/-- … the first window's array holds the gathered rows, -/
theorem V_xs (c : Dev nD) : V m c main_v10 = kerXs (m ((c.tc : Thread nD τ).loc main_arg0)) (m ((c.tc : Thread nD τ).loc main_arg1)) := pre_xs _
/-- … the weight buffer holds the gathered weights, -/
theorem V_w (c : Dev nD) : V m c main_v18 = kerW (m ((c.tc : Thread nD τ).loc main_arg1)) (m ((c.tc : Thread nD τ).loc main_arg2)) := pre_w _
/-- … and the arguments are as launched. -/
theorem V_arg0 (c : Dev nD) : V m c main_arg0 = m ((c.tc : Thread nD τ).loc main_arg0) := pre_arg0 _
theorem V_arg1 (c : Dev nD) : V m c main_arg1 = m ((c.tc : Thread nD τ).loc main_arg1) := pre_arg1 _
theorem V_arg2 (c : Dev nD) : V m c main_arg2 = m ((c.tc : Thread nD τ).loc main_arg2) := pre_arg2 _
theorem V_arg3 (c : Dev nD) : V m c main_arg3 = m ((c.tc : Thread nD τ).loc main_arg3) := pre_arg3 _
theorem V_arg4 (c : Dev nD) : V m c main_arg4 = m ((c.tc : Thread nD τ).loc main_arg4) := pre_arg4 _

/-! ## The fold of the operations after the region -/

attribute [local irreducible] Host.sort2 Host.gather Host.scatterAdd in
set_option maxRecDepth 8192 in
set_option maxHeartbeats 2000000 in
theorem post_out (W : Valuation τ sig (Elt F)) :
    StableHlo.after (hostOps1 (F := F)) W (Proc.devRef .tc main_v31)
      = kerTail (W (Proc.devRef .tc main_v2)) (W (Proc.devRef .tc main_v18)) (W (Proc.devRef .tc main_v19)) := by
  after_results_simp
  rfl

theorem post_arg0 (W : Valuation τ sig (Elt F)) :
    StableHlo.after (hostOps1 (F := F)) W (Proc.devRef .tc main_arg0) = W (Proc.devRef .tc main_arg0) := by
  after_results_simp

theorem post_arg1 (W : Valuation τ sig (Elt F)) :
    StableHlo.after (hostOps1 (F := F)) W (Proc.devRef .tc main_arg1) = W (Proc.devRef .tc main_arg1) := by
  after_results_simp

theorem post_arg2 (W : Valuation τ sig (Elt F)) :
    StableHlo.after (hostOps1 (F := F)) W (Proc.devRef .tc main_arg2) = W (Proc.devRef .tc main_arg2) := by
  after_results_simp

theorem post_arg3 (W : Valuation τ sig (Elt F)) :
    StableHlo.after (hostOps1 (F := F)) W (Proc.devRef .tc main_arg3) = W (Proc.devRef .tc main_arg3) := by
  after_results_simp

theorem post_arg4 (W : Valuation τ sig (Elt F)) :
    StableHlo.after (hostOps1 (F := F)) W (Proc.devRef .tc main_arg4) = W (Proc.devRef .tc main_arg4) := by
  after_results_simp

/-! ## The two programs' stages are the same functions -/

theorem kerOrder_eq (a1 : IVec S2048x8 32) : kerOrder a1 = Cert.ReferenceIdeal.RefRun.refOrder a1 := rfl
theorem kerTok_eq (a1 : IVec S2048x8 32) : kerTok a1 = Cert.ReferenceIdeal.RefRun.refTok a1 := rfl
theorem kerXs_eq (a0 : FVec F S2048x2048 .f32) (a1 : IVec S2048x8 32) : kerXs a0 a1 = Cert.ReferenceIdeal.RefRun.refXs a0 a1 := rfl
theorem kerW_eq (a1 : IVec S2048x8 32) (a2 : FVec F S2048x8 .f32) : kerW a1 a2 = Cert.ReferenceIdeal.RefRun.refW a1 a2 := rfl
theorem kerTail_eq (tok : IVec S16384 32) (w : FVec F S16384 .f32) (y : FVec F S64x256x2048 .f32) :
    kerTail tok w y = Cert.ReferenceIdeal.RefRun.refTail tok w y := rfl

end Cert.KernelIdeal.HostValue

end
-- ==== Proof.KiHostEnd.lean ====
/-
  The end of the expert kernel's program read off its run: once the operations after the region have run, the result
  buffer holds the weighted scatter of the region's output array, and the arguments are as launched — the region's
  output array is not an argument and no later operation writes one.
-/
import proofs.«175903_j26096221290603_1_alg».proof.Proof.KiLaunch
import proofs.«175903_j26096221290603_1_alg».proof.Proof.KiHost

noncomputable section

namespace Cert.KernelIdeal.HostValue

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

variable (m : (ℓ : Loc nD τ sig) → Buf (Elt F) ℓ)

/-- After the later operations the result buffer holds the weighted scatter of what the region left in its output
    array, at the tokens and weights computed before the region. -/
theorem Wend_out (c : Dev nD) :
    Wend m c (Proc.devRef .tc main_v31) = kerTail (V m c main_v2) (V m c main_v18) ((dats m 0 c).arrAt 4 cfg0.N) := by
  unfold Wend
  rw [post_out]
  unfold Wexit
  rw [Function.update_of_ne (devRef_ne_of_ne (by decide)), Function.update_of_ne (devRef_ne_of_ne (by decide)),
    Function.update_self]

/-- … and argument 0 is as launched: neither the region's output array nor any later operation's result is it. -/
theorem Wend_arg0 (c : Dev nD) : Wend m c (Proc.devRef .tc main_arg0) = m ((c.tc : Thread nD τ).loc main_arg0) := by
  unfold Wend
  rw [post_arg0]
  unfold Wexit
  rw [Function.update_of_ne (devRef_ne_of_ne (by decide))]
  exact pre_arg0 _

/-- … and argument 1 is as launched: neither the region's output array nor any later operation's result is it. -/
theorem Wend_arg1 (c : Dev nD) : Wend m c (Proc.devRef .tc main_arg1) = m ((c.tc : Thread nD τ).loc main_arg1) := by
  unfold Wend
  rw [post_arg1]
  unfold Wexit
  rw [Function.update_of_ne (devRef_ne_of_ne (by decide))]
  exact pre_arg1 _

/-- … and argument 2 is as launched: neither the region's output array nor any later operation's result is it. -/
theorem Wend_arg2 (c : Dev nD) : Wend m c (Proc.devRef .tc main_arg2) = m ((c.tc : Thread nD τ).loc main_arg2) := by
  unfold Wend
  rw [post_arg2]
  unfold Wexit
  rw [Function.update_of_ne (devRef_ne_of_ne (by decide))]
  exact pre_arg2 _

/-- … and argument 3 is as launched: neither the region's output array nor any later operation's result is it. -/
theorem Wend_arg3 (c : Dev nD) : Wend m c (Proc.devRef .tc main_arg3) = m ((c.tc : Thread nD τ).loc main_arg3) := by
  unfold Wend
  rw [post_arg3]
  unfold Wexit
  rw [Function.update_of_ne (devRef_ne_of_ne (by decide))]
  exact pre_arg3 _

/-- … and argument 4 is as launched: neither the region's output array nor any later operation's result is it. -/
theorem Wend_arg4 (c : Dev nD) : Wend m c (Proc.devRef .tc main_arg4) = m ((c.tc : Thread nD τ).loc main_arg4) := by
  unfold Wend
  rw [post_arg4]
  unfold Wexit
  rw [Function.update_of_ne (devRef_ne_of_ne (by decide))]
  exact pre_arg4 _

end Cert.KernelIdeal.HostValue

end
-- ==== Proof.KiPieces.lean ====
/-
  What each control case of the body leaves, as arithmetic of the blocks it was given.

  The body's run in a case is a list of stores; what a buffer holds afterwards is the last store that covers each
  entry. Every store and every load here goes through the whole buffer, so the accumulator ends at the payload of the
  last store into it, with each load replaced by the contents loaded:
    at tile 0     the accumulator ends at  step x g u d zeros     (the zeros just stored are what the load reads back),
    at tile 1     at  step x g u d acc,
    at tile 2     at  step x g u d acc,  and the output block ends at that value with a unit axis added,
  where step is the body's one arithmetic term.
-/
import proofs.«175903_j26096221290603_1_alg».proof.Proof.KiRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Tile 1: the one store into the accumulator is the step over the loaded blocks and the loaded accumulator. -/
theorem canonAdd_eq (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : ¬condOut i)
    (x0 x1 x2 : Vec F S1x256x2048 .f32) (x3 : Vec F S1x2048x256 .f32) (xs : Vec F S256x2048 .f32) :
    View.canon (runAdd c i arg2 harg2 arg3 harg3 arg4 harg4 arg5 harg5 arg6 harg6 arg7 harg7 hc0 hc1 x0 x1 x2 x3 xs).1 = k0_pay2 x0 x1 x2 x3 xs := by
  unfold runAdd
  dsimp only
  sl_unfold_words
  rw [View.canon_unit_zero (S := S256x2048) hz2]
  simp only [View.readAt_eq_ld, harg2.read_unread, harg3.read_unread, harg4.read_unread, harg5.read_unread, harg7.read_unread,
    View.ld_unit_zero (S := S1x256x2048) hz3, View.ld_unit_zero (S := S1x2048x256) hz3, View.ld_unit_zero (S := S256x2048) hz2]

/-- Tile 0: two stores into the accumulator, the zeros and then the step over a load that reads those zeros back. -/
theorem canonReset_eq (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : condReset i) (hc1 : ¬condOut i)
    (x0 x1 x2 : Vec F S1x256x2048 .f32) (x3 : Vec F S1x2048x256 .f32) :
    View.canon (runReset c i arg2 harg2 arg3 harg3 arg4 harg4 arg5 harg5 arg6 harg6 arg7 harg7 hc0 hc1 x0 x1 x2 x3).1 = k0_pay2 x0 x1 x2 x3 k0_pay1 := by
  unfold runReset
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread,
    View.ld_unit_zero (S := S1x256x2048) hz3, View.ld_unit_zero (S := S1x2048x256) hz3]

/-- Tile 2, the accumulator: as at tile 1. -/
theorem canonLast_eq (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i)
    (x0 x1 x2 : Vec F S1x256x2048 .f32) (x3 : Vec F S1x2048x256 .f32) (xs : Vec F S256x2048 .f32) :
    View.canon (runOut c i arg2 harg2 arg3 harg3 arg4 harg4 arg5 harg5 arg6 harg6 arg7 harg7 hc0 hc1 x0 x1 x2 x3 xs).2.1 = k0_pay2 x0 x1 x2 x3 xs := by
  unfold runOut
  dsimp only
  sl_unfold_words
  rw [View.canon_unit_zero (S := S256x2048) hz2]
  simp only [View.readAt_eq_ld, harg2.read_unread, harg3.read_unread, harg4.read_unread, harg5.read_unread, harg7.read_unread,
    View.ld_unit_zero (S := S1x256x2048) hz3, View.ld_unit_zero (S := S1x2048x256) hz3, View.ld_unit_zero (S := S256x2048) hz2]

/-- Tile 2, the output block: the copy of the accumulator as the store just before left it. -/
theorem canonOut_eq (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬condReset i) (hc1 : condOut i)
    (x0 x1 x2 : Vec F S1x256x2048 .f32) (x3 : Vec F S1x2048x256 .f32) (xs : Vec F S256x2048 .f32) :
    View.canon (runOut c i arg2 harg2 arg3 harg3 arg4 harg4 arg5 harg5 arg6 harg6 arg7 harg7 hc0 hc1 x0 x1 x2 x3 xs).1 = k0_pay3 (k0_pay2 x0 x1 x2 x3 xs) := by
  unfold runOut
  dsimp only
  sl_unfold_words
  rw [View.canon_unit_zero (S := S1x256x2048) hz3, View.readCov_unit_zero (S := S256x2048) _ hz2]
  simp only [View.readAt_eq_ld, harg2.read_unread, harg3.read_unread, harg4.read_unread, harg5.read_unread, harg7.read_unread,
    View.ld_unit_zero (S := S1x256x2048) hz3, View.ld_unit_zero (S := S1x2048x256) hz3, View.ld_unit_zero (S := S256x2048) hz2]

end Cert.KernelIdeal.Hand

end
-- ==== Proof.KiBlocks.lean ====
/-
  Where a window's block at a grid point sits in its array.

  Grid point t is expert t / 3, tile t mod 3. An entry of a block is the array's entry at block index × block size +
  the coordinate inside the block, axis by axis; the block indices are the index maps' values, decided once over the
  192 points:
    the gathered rows      block (t / 3, 0, 0)           of [64, 256, 2048]:   entry (0, r, k) is row r of expert t / 3;
    the gate tile          block (t / 3, t mod 3, 0)     of [64, 1536, 2048]:  entry (0, i, k) is row (t mod 3)·256 + i;
    the up tile            block (t / 3, t mod 3 + 3, 0) of the same array:    entry (0, i, k) is row 768 + (t mod 3)·256 + i;
    the down tile          block (t / 3, 0, t mod 3)     of [64, 2048, 768]:   entry (0, h, i) is column (t mod 3)·256 + i;
    the output             block (t / 3, 0, 0)           of [64, 256, 2048].
  The weight row or column is named by any index with the right value, so that a user need not match a spelling.
-/
import proofs.«175903_j26096221290603_1_alg».proof.Proof.KiBase
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## The block indices, decided over the grid -/

theorem idx0 : ∀ t : Fin cfg0.N, win0_0.index t (0 : Fin 3) = t.val / 3 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 3 ∧ win0_1.index t (1 : Fin 3) = t.val % 3 ∧ win0_1.index t (2 : Fin 3) = 0 :=
  (by decide +kernel : ∀ t : Fin grid0.N, _)
theorem idx2 : ∀ t : Fin cfg0.N, win0_2.index t (0 : Fin 3) = t.val / 3 ∧ win0_2.index t (1 : Fin 3) = t.val % 3 + 3 ∧ win0_2.index t (2 : Fin 3) = 0 :=
  (by decide +kernel : ∀ t : Fin grid0.N, _)
theorem idx3 : ∀ t : Fin cfg0.N, win0_3.index t (0 : Fin 3) = t.val / 3 ∧ win0_3.index t (1 : Fin 3) = 0 ∧ win0_3.index t (2 : Fin 3) = t.val % 3 :=
  (by decide +kernel : ∀ t : Fin grid0.N, _)
theorem idx4 : ∀ t : Fin cfg0.N, win0_4.index t (0 : Fin 3) = t.val / 3 ∧ win0_4.index t (1 : Fin 3) = 0 ∧ win0_4.index t (2 : Fin 3) = 0 :=
  (by decide +kernel : ∀ t : Fin grid0.N, _)

/-! ## The input blocks at an entry -/

/-- The gathered rows at point t: row r of expert t / 3. -/
theorem iblk0_apply (c : Dev nD) (t : Fin cfg0.N) (e : Fin 64) (he : e.val = t.val / 3) (r : Fin 256) (k : Fin 2048) :
    (iblk m c 0 t : Vec F S1x256x2048 .f32) (ix3 0 r k) = (V m c main_v10 : S64x256x2048.Idx → Elt F .f32) (ix3 e r k) := by
  obtain ⟨e0, e1, e2⟩ := idx0 t
  unfold iblk
  rw [View.read_apply]
  show V m c main_v10 (((cfg0.win 0).blk t).view.emb (ix3 0 r k)) = V m c main_v10 (ix3 e r k)
  refine congrArg (V m c main_v10) ?_
  funext a; apply Fin.ext
  match a with
  | ⟨0, _⟩ => show win0_0.index t (0 : Fin 3) * 1 + 1 * 0 = e.val; omega
  | ⟨1, _⟩ => show win0_0.index t (1 : Fin 3) * 256 + 1 * r.val = r.val; omega
  | ⟨2, _⟩ => show win0_0.index t (2 : Fin 3) * 2048 + 1 * k.val = k.val; omega

/-- The gate tile at point t: row (t mod 3)·256 + i of the stacked matrix of expert t / 3. -/
theorem iblk1_apply (c : Dev nD) (t : Fin cfg0.N) (e : Fin 64) (he : e.val = t.val / 3) (i : Fin 256) (k : Fin 2048)
    (o : Fin 1536) (ho : o.val = t.val % 3 * 256 + i.val) :
    (iblk m c 1 t : Vec F S1x256x2048 .f32) (ix3 0 i k) = (V m c main_arg3 : S64x1536x2048.Idx → Elt F .f32) (ix3 e o k) := by
  obtain ⟨e0, e1, e2⟩ := idx1 t
  unfold iblk
  rw [View.read_apply]
  show V m c main_arg3 (((cfg0.win 1).blk t).view.emb (ix3 0 i k)) = V m c main_arg3 (ix3 e o k)
  refine congrArg (V m c main_arg3) ?_
  funext a; apply Fin.ext
  match a with
  | ⟨0, _⟩ => show win0_1.index t (0 : Fin 3) * 1 + 1 * 0 = e.val; omega
  | ⟨1, _⟩ => show win0_1.index t (1 : Fin 3) * 256 + 1 * i.val = o.val; omega
  | ⟨2, _⟩ => show win0_1.index t (2 : Fin 3) * 2048 + 1 * k.val = k.val; omega

/-- The up tile at point t: row 768 + (t mod 3)·256 + i of the same stacked matrix. -/
theorem iblk2_apply (c : Dev nD) (t : Fin cfg0.N) (e : Fin 64) (he : e.val = t.val / 3) (i : Fin 256) (k : Fin 2048)
    (o : Fin 1536) (ho : o.val = 768 + t.val % 3 * 256 + i.val) :
    (iblk m c 2 t : Vec F S1x256x2048 .f32) (ix3 0 i k) = (V m c main_arg3 : S64x1536x2048.Idx → Elt F .f32) (ix3 e o k) := by
  obtain ⟨e0, e1, e2⟩ := idx2 t
  unfold iblk
  rw [View.read_apply]
  show V m c main_arg3 (((cfg0.win 2).blk t).view.emb (ix3 0 i k)) = V m c main_arg3 (ix3 e o k)
  refine congrArg (V m c main_arg3) ?_
  funext a; apply Fin.ext
  match a with
  | ⟨0, _⟩ => show win0_2.index t (0 : Fin 3) * 1 + 1 * 0 = e.val; omega
  | ⟨1, _⟩ => show win0_2.index t (1 : Fin 3) * 256 + 1 * i.val = o.val; omega
  | ⟨2, _⟩ => show win0_2.index t (2 : Fin 3) * 2048 + 1 * k.val = k.val; omega

/-- The down tile at point t: column (t mod 3)·256 + i of the down matrix of expert t / 3. -/
theorem iblk3_apply (c : Dev nD) (t : Fin cfg0.N) (e : Fin 64) (he : e.val = t.val / 3) (h : Fin 2048) (i : Fin 256)
    (o : Fin 768) (ho : o.val = t.val % 3 * 256 + i.val) :
    (iblk m c 3 t : Vec F S1x2048x256 .f32) (ix3 0 h i) = (V m c main_arg4 : S64x2048x768.Idx → Elt F .f32) (ix3 e h o) := by
  obtain ⟨e0, e1, e2⟩ := idx3 t
  unfold iblk
  rw [View.read_apply]
  show V m c main_arg4 (((cfg0.win 3).blk t).view.emb (ix3 0 h i)) = V m c main_arg4 (ix3 e h o)
  refine congrArg (V m c main_arg4) ?_
  funext a; apply Fin.ext
  match a with
  | ⟨0, _⟩ => show win0_3.index t (0 : Fin 3) * 1 + 1 * 0 = e.val; omega
  | ⟨1, _⟩ => show win0_3.index t (1 : Fin 3) * 2048 + 1 * h.val = h.val; omega
  | ⟨2, _⟩ => show win0_3.index t (2 : Fin 3) * 256 + 1 * i.val = o.val; omega

end Cert.KernelIdeal.Hand

end
-- ==== Proof.ProductRows.lean ====
/-
  A product of two matrices that are both contracted on their second axis — an [A, K] array against a [B, K]
  array, giving [A, B] — accumulated into the zero array, read at one entry on the extended reals:

      (l · rᵀ) (p, q) = Σ_{k < K} l (p, k) · r (q, k).

  The contraction's index set has one axis of extent K; the sum is carried along the bijection between that index
  set and Fin K, and the two operand indices at (p, q) and k are (p, k) and (q, k) coordinate by coordinate.
-/
import Idealize.ShloMosaic.PureOps.Ideal.Laws
import Idealize.ShloMosaic.Lib.ValueIdx

noncomputable section

namespace Cert.KernelIdeal.BodyValue

open Idealize.ShloMosaic Idealize.ShloMosaic.ValueIdx

/-- An [A, K] array times the transpose of a [B, K] array, into the zero accumulator, at entry (p, q): the sum over
    the shared second coordinate of the products of the two rows' entries. -/
theorem product_rows_apply {A B K : Nat} {φ₁ φ₂ : FTy}
    (w : DotDims.WF ⟨2, ![A, K]⟩ ⟨2, ![B, K]⟩ ⟨2, ![A, B]⟩ [1] [1] [0] [0] [] [])
    (prec : Option ContractPrecision) (l : FVec Ideal ⟨2, ![A, K]⟩ φ₁) (r : FVec Ideal ⟨2, ![B, K]⟩ φ₂)
    (p : Fin A) (q : Fin B) :
    matmul (⟨[1], [1], [0], [0], [], [], w⟩ : DotDims _ _ _) prec l r
        (constant (F := Ideal) ⟨2, ![A, B]⟩ .f32 0x00000000#32) (ix2 p q)
      = ∑ k : Fin K, l (ix2 p k) * r (ix2 q k) := by
  show FloatOps.matmul _ prec l r _ (ix2 p q) = _
  rw [Ideal.matmul_constant_zero_apply,
    ← Equiv.sum_comp (contrEquiv1 (⟨[1], [1], [0], [0], [], [], w⟩ : DotDims _ _ _) K rfl rfl).symm]
  refine Finset.sum_congr rfl fun c _ => ?_
  -- the contraction index that corresponds to c has c as its one coordinate
  have c2 := contrEquiv1_symm_val
    (⟨[1], [1], [0], [0], [], [], w⟩ : DotDims ⟨2, ![A, K]⟩ ⟨2, ![B, K]⟩ ⟨2, ![A, B]⟩) K rfl rfl c
  -- the left operand is read at (p, c) …
  have l2 : (⟨[1], [1], [0], [0], [], [], w⟩ : DotDims ⟨2, ![A, K]⟩ ⟨2, ![B, K]⟩ ⟨2, ![A, B]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  -- … and the right operand at (q, c)
  have r2 : (⟨[1], [1], [0], [0], [], [], w⟩ : DotDims ⟨2, ![A, K]⟩ ⟨2, ![B, K]⟩ ⟨2, ![A, B]⟩).rhsIdx (ix2 p q)
      ((contrEquiv1 _ K rfl rfl).symm c) = ix2 q c := by
    funext ax; apply Fin.ext
    match ax with
    | ⟨0, _⟩ => simp [DotDims.rhsIdx]; rfl
    | ⟨1, _⟩ => simp [DotDims.rhsIdx]; exact c2
  rw [l2, r2]

end Cert.KernelIdeal.BodyValue

end
-- ==== Proof.BodyValue.lean ====
/-
  The arithmetic of the kernel's body at one entry, on the extended reals.

  At a grid point the body holds the expert's 256 gathered rows x (as a [1, 256, 2048] block), a tile of 256 rows
  of the gate matrix g and of the up matrix u (each [1, 256, 2048]), the matching 256 columns of the down matrix d
  (a [1, 2048, 256] block), and the accumulator acc ([256, 2048]). With

      G i = Σ_{k < 2048} x (0, c, k) · g (0, i, k),        U i = Σ_{k < 2048} x (0, c, k) · u (0, i, k),

  the value it stores at (c, h) is

      acc (c, h) + Σ_{i < 256} ( G i · σ(G i) · U i ) · d (0, h, i).

  The leading unit axis of each block is dropped by a cast, the changes of float format are the identity on the
  extended reals, and each of the three products contracts the second axis of both of its factors into the zero
  accumulator, so it is a plain finite sum.
-/
import proofs.«175903_j26096221290603_1_alg».proof.Proof.Gen.KernelIdeal.Skeleton
import proofs.«175903_j26096221290603_1_alg».proof.Proof.ProductRows
import Idealize.ShloMosaic.Lib.ValueLayout

noncomputable section

namespace Cert.KernelIdeal.BodyValue

open Idealize.ShloMosaic Idealize.ShloMosaic.ValueIdx
open Cert.KernelIdeal

/-- Row c of the gathered block against row i of a weight tile: the contraction over the 2048 hidden coordinates. -/
def rowDot (x w : Vec Ideal S1x256x2048 .f32) (c i : Fin 256) : EReal :=
  ∑ k : Fin 2048, x (ix3 0 c k) * w (ix3 0 i k)

/-- A [1, 256, 2048] block with its unit axis dropped and its format narrowed reads, at (c, k), the block at (0, c, k). -/
theorem rows_apply (x : Vec Ideal S1x256x2048 .f32) (hc : S1x256x2048.ShapeCasts S256x2048)
    (hb : FTy.bits .bf16 < FTy.bits .f32) (c : Fin 256) (k : Fin 2048) :
    (truncf .bf16 (shapeCast S256x2048 x hc : FVec Ideal S256x2048 .f32) hb : FVec Ideal S256x2048 .bf16) (ix2 c k)
      = x (ix3 0 c k) :=
  shapeCast_1ab_ab_apply x hc c k

/-- The product of the gathered rows with a weight tile, both contracted on the hidden axis, at (c, i). -/
theorem rows_product_apply (x w : Vec Ideal S1x256x2048 .f32) (c i : Fin 256) :
    (matmul dot_S256x2048_S256x2048_S256x256_1_1_0_0_n_n none
      (truncf .bf16 (shapeCast S256x2048 x Facts₀.shapeCasts_S1x256x2048_S256x2048 : FVec Ideal S256x2048 .f32) Facts₀.bitsLt_bf16_f32)
      (truncf .bf16 (shapeCast S256x2048 w Facts₀.shapeCasts_S1x256x2048_S256x2048 : FVec Ideal S256x2048 .f32) Facts₀.bitsLt_bf16_f32)
      (constant (F := Ideal) S256x256 .f32 0x00000000#32) : FVec Ideal S256x256 .f32) (ix2 c i) = rowDot x w c i :=
  (product_rows_apply Facts₀.dot_S256x2048_S256x2048_S256x256_1_1_0_0_n_n_wf none _ _ c i).trans
    (Finset.sum_congr rfl fun k _ => congrArg₂ (· * ·) (rows_apply x _ _ c k) (rows_apply w _ _ i k))

/-- The zero block the accumulator is overwritten with at the first tile. -/
theorem pay1_apply (j : S256x2048.Idx) : Gen.k0_pay1 (F := Ideal) j = 0 := by
  unfold Gen.k0_pay1
  refine (congrFun (shapeCast_self _ _) j).trans ?_
  exact Ideal.ofBits_zero_f32

/-- THE BODY'S STORED VALUE AT (c, h). -/
theorem pay2_apply (x g u : Vec Ideal S1x256x2048 .f32) (d : Vec Ideal S1x2048x256 .f32) (acc : Vec Ideal S256x2048 .f32)
    (c : Fin 256) (h : Fin 2048) :
    Gen.k0_pay2 (F := Ideal) x g u d acc (ix2 c h)
      = acc (ix2 c h) + ∑ i : Fin 256,
          ((rowDot x g c i * Ideal.logistic (rowDot x g c i)) * rowDot x u c i) * d (ix3 0 h i) := by
  unfold Gen.k0_pay2
  refine (congrFun (shapeCast_self _ _) (ix2 c h)).trans ?_
  refine congrArg (acc (ix2 c h) + ·) ?_
  refine (product_rows_apply Facts₀.dot_S256x256_S2048x256_S256x2048_1_1_0_0_n_n_wf none _ _ c h).trans ?_
  refine Finset.sum_congr rfl fun i _ => ?_
  refine congrArg₂ (· * ·) ?_ (shapeCast_1ab_ab_apply d _ h i)
  have eg := rows_product_apply x g c i
  have eu := rows_product_apply x u c i
  exact congrArg₂ (· * ·) (congrArg₂ (· * ·) eg (congrArg Ideal.logistic eg)) eu

/-- The copy-out at the last tile adds a unit axis: entry (0, c, h) of the block is entry (c, h) of the accumulator. -/
theorem pay3_apply (a : Vec Ideal S256x2048 .f32) (c : Fin 256) (h : Fin 2048) :
    Gen.k0_pay3 (F := Ideal) a (ix3 0 c h) = a (ix2 c h) := by
  unfold Gen.k0_pay3
  exact shapeCast_ab_1ab_apply a _ 0 c h

end Cert.KernelIdeal.BodyValue

end
-- ==== Proof.BlockSum.lean ====
/-
  A sum over 768 consecutive coordinates is the sum of the sums over its three runs of 256, taken in order starting
  from zero: in an additive commutative monoid nothing but the grouping changes.
-/
import Mathlib.Algebra.BigOperators.Fin

namespace Cert.KernelIdeal.BodyValue

/-- The three partial sums over coordinates 0 … 255, 256 … 511 and 512 … 767, accumulated from zero, make the
    whole sum over the 768 coordinates. -/
theorem sum_three_tiles {M : Type*} [AddCommMonoid M] (f : Fin 768 → M) :
    ((0 + ∑ i : Fin 256, f ⟨i.val, by omega⟩) + ∑ i : Fin 256, f ⟨256 + i.val, by omega⟩)
        + ∑ i : Fin 256, f ⟨512 + i.val, by omega⟩ = ∑ i : Fin 768, f i := by
  have h1 : ∑ i : Fin 768, f i
      = ∑ i : Fin 512, f (Fin.castAdd 256 i) + ∑ i : Fin 256, f (Fin.natAdd 512 i) :=
    Fin.sum_univ_add (a := 512) (b := 256) f
  have h2 : ∑ i : Fin 512, f (Fin.castAdd 256 i)
      = ∑ i : Fin 256, f (Fin.castAdd 256 (Fin.castAdd 256 i)) + ∑ i : Fin 256, f (Fin.castAdd 256 (Fin.natAdd 256 i)) :=
    Fin.sum_univ_add (a := 256) (b := 256) fun i => f (Fin.castAdd 256 i)
  rw [h1, h2, zero_add]
  rfl

end Cert.KernelIdeal.BodyValue
-- ==== Proof.MoeSpec.lean ====
/-
  The mathematics both programs compute between the token gather and the weighted scatter: for every
  expert `e`, every one of its 256 gathered rows `c` and every hidden coordinate `h`,

      out (e, c, h) = Σ_{i < 768} ( g_i · σ(g_i) · u_i ) · down (e, h, i),
      g_i = Σ_{k < 2048} x (e, c, k) · gateUp (e, i, k),        u_i = Σ_{k < 2048} x (e, c, k) · gateUp (e, 768 + i, k),

  on the extended reals, σ the logistic function. Sums are finite sums in the additive commutative monoid of
  the extended reals, so regrouping the 768 terms into three blocks of 256 changes nothing and no finiteness
  is needed.
-/
import Idealize.ShloMosaic.PureOps.Ideal
import Idealize.ShloMosaic.Lib.ValueIdx

noncomputable section

namespace Cert.Moe

open Idealize.ShloMosaic Idealize.ShloMosaic.ValueIdx

/-- The gathered rows, [expert, row, hidden]. -/
abbrev SX : Shape := ⟨3, ![64, 256, 2048]⟩
/-- The gate and up projections stacked on axis 1, [expert, 2·768, hidden]. -/
abbrev SGU : Shape := ⟨3, ![64, 1536, 2048]⟩
/-- The down projection, [expert, hidden, 768]. -/
abbrev SDN : Shape := ⟨3, ![64, 2048, 768]⟩

/-- Row `c` of expert `e` against row `o` of that expert's stacked gate/up matrix. -/
def proj (x : SX.Idx → EReal) (gu : SGU.Idx → EReal) (e : Fin 64) (c : Fin 256) (o : Fin 1536) : EReal :=
  ∑ k : Fin 2048, x (ix3 e c k) * gu (ix3 e o k)

/-- The gated hidden activation `g · σ(g) · u` at intermediate coordinate `i`. -/
def hidden (x : SX.Idx → EReal) (gu : SGU.Idx → EReal) (e : Fin 64) (c : Fin 256) (i : Fin 768) : EReal :=
  (proj x gu e c ⟨i.val, by omega⟩ * Ideal.logistic (proj x gu e c ⟨i.val, by omega⟩)) * proj x gu e c ⟨768 + i.val, by omega⟩

/-- The expert's output row: the hidden activation against the down projection, contracted over all 768
    intermediate coordinates. -/
def expertOut (x : SX.Idx → EReal) (gu : SGU.Idx → EReal) (dn : SDN.Idx → EReal) : SX.Idx → EReal :=
  fun j => ∑ i : Fin 768, hidden x gu (j 0) (j 1) i * dn (ix3 (j 0) (j 2) i)

end Cert.Moe

end
-- ==== Proof.ThreeTiles.lean ====
/-
  The three tiles of one expert make the expert's whole output.

  The 768 intermediate coordinates are cut into three tiles of 256. At tile n the body holds rows n·256 … of the gate
  half and rows 768 + n·256 … of the up half of the stacked gate/up matrix, and columns n·256 … of the down matrix, and
  adds to the accumulator, at (c, h), the tile's share

      Σ_{i < 256} hidden (n·256 + i) · down (e, h, n·256 + i)

  of the expert's output row. Started from zero and taken in order, the three shares are the whole contraction over the
  768 coordinates: sums in an additive commutative monoid regroup freely, and no finiteness is needed.
-/
import proofs.«175903_j26096221290603_1_alg».proof.Proof.BodyValue
import proofs.«175903_j26096221290603_1_alg».proof.Proof.BlockSum
import proofs.«175903_j26096221290603_1_alg».proof.Proof.MoeSpec

noncomputable section

namespace Cert.KernelIdeal.BodyValue

open Idealize.ShloMosaic Idealize.ShloMosaic.ValueIdx
open Cert.KernelIdeal

variable (X : Cert.Moe.SX.Idx → EReal) (GU : Cert.Moe.SGU.Idx → EReal) (DN : Cert.Moe.SDN.Idx → EReal)

/-- The summand of the expert's output at (e, c, h) that belongs to intermediate coordinate j. -/
def term (e : Fin 64) (c : Fin 256) (h : Fin 2048) (j : Fin 768) : EReal :=
  Cert.Moe.hidden X GU e c j * DN (ix3 e h j)

/-- The expert's output at (e, c, h) is the sum of its 768 summands. -/
theorem expertOut_apply (e : Fin 64) (c : Fin 256) (h : Fin 2048) :
    Cert.Moe.expertOut X GU DN (ix3 e c h) = ∑ j : Fin 768, term X GU DN e c h j := rfl

/-- The share of tile n: the summands of coordinates n·256 … n·256 + 255. -/
def tileSum (e : Fin 64) (c : Fin 256) (h : Fin 2048) (n : Nat) (hn : n < 3) : EReal :=
  ∑ i : Fin 256, term X GU DN e c h ⟨n * 256 + i.val, by omega⟩

/-- ONE TILE. If the blocks the body holds are the expert's rows and tile n of its three weight matrices — stated entry
    by entry, the weight rows and columns named by any index with the right value —, the body adds tile n's share to
    the accumulator. -/
theorem tile_apply (e : Fin 64) (n : Nat) (hn : n < 3)
    (x g u : Vec Ideal S1x256x2048 .f32) (d : Vec Ideal S1x2048x256 .f32) (acc : Vec Ideal S256x2048 .f32)
    (hx : ∀ (c : Fin 256) (k : Fin 2048), x (ix3 0 c k) = X (ix3 e c k))
    (hg : ∀ (i : Fin 256) (k : Fin 2048) (o : Fin 1536), o.val = n * 256 + i.val → g (ix3 0 i k) = GU (ix3 e o k))
    (hu : ∀ (i : Fin 256) (k : Fin 2048) (o : Fin 1536), o.val = 768 + n * 256 + i.val → u (ix3 0 i k) = GU (ix3 e o k))
    (hd : ∀ (h : Fin 2048) (i : Fin 256) (o : Fin 768), o.val = n * 256 + i.val → d (ix3 0 h i) = DN (ix3 e h o))
    (c : Fin 256) (h : Fin 2048) :
    Gen.k0_pay2 (F := Ideal) x g u d acc (ix2 c h) = acc (ix2 c h) + tileSum X GU DN e c h n hn := by
  refine (pay2_apply x g u d acc c h).trans ?_
  refine congrArg (acc (ix2 c h) + ·) (Finset.sum_congr rfl fun i _ => ?_)
  -- the gate and up contractions are the specification's projections at rows n·256 + i and 768 + n·256 + i
  have eG : rowDot x g c i = Cert.Moe.proj X GU e c ⟨n * 256 + i.val, by omega⟩ :=
    Finset.sum_congr rfl fun k _ => congrArg₂ (· * ·) (hx c k) (hg i k _ rfl)
  have eU : rowDot x u c i = Cert.Moe.proj X GU e c ⟨768 + (n * 256 + i.val), by omega⟩ :=
    Finset.sum_congr rfl fun k _ => congrArg₂ (· * ·) (hx c k) (hu i k _ (Nat.add_assoc _ _ _).symm)
  exact congrArg₂ (· * ·) (congrArg₂ (· * ·) (congrArg₂ (· * ·) eG (congrArg Ideal.logistic eG)) eU) (hd h i _ rfl)

/-- The three shares, accumulated from zero in order, are the expert's output. -/
theorem tiles_sum (e : Fin 64) (c : Fin 256) (h : Fin 2048) :
    ((0 + tileSum X GU DN e c h 0 (by omega)) + tileSum X GU DN e c h 1 (by omega)) + tileSum X GU DN e c h 2 (by omega)
      = Cert.Moe.expertOut X GU DN (ix3 e c h) := by
  rw [expertOut_apply, ← sum_three_tiles (term X GU DN e c h)]
  have e0 : tileSum X GU DN e c h 0 (by omega) = ∑ i : Fin 256, term X GU DN e c h ⟨i.val, by omega⟩ :=
    Finset.sum_congr rfl fun i _ => congrArg (term X GU DN e c h) (Fin.ext (by show 0 * 256 + i.val = i.val; omega))
  have e1 : tileSum X GU DN e c h 1 (by omega) = ∑ i : Fin 256, term X GU DN e c h ⟨256 + i.val, by omega⟩ :=
    Finset.sum_congr rfl fun i _ => congrArg (term X GU DN e c h) (Fin.ext (by show 1 * 256 + i.val = 256 + i.val; omega))
  have e2 : tileSum X GU DN e c h 2 (by omega) = ∑ i : Fin 256, term X GU DN e c h ⟨512 + i.val, by omega⟩ :=
    Finset.sum_congr rfl fun i _ => congrArg (term X GU DN e c h) (Fin.ext (by show 2 * 256 + i.val = 512 + i.val; omega))
  rw [e0, e1, e2]

/-- THE THREE TILES. The body run at tiles 0, 1, 2 in order, from an accumulator that is zero, leaves at (c, h) the
    expert's output at (e, c, h). -/
theorem three_tiles (e : Fin 64)
    (x g0 u0 g1 u1 g2 u2 : Vec Ideal S1x256x2048 .f32) (d0 d1 d2 : Vec Ideal S1x2048x256 .f32) (zero : Vec Ideal S256x2048 .f32)
    (hz : ∀ j, zero j = 0)
    (hx : ∀ (c : Fin 256) (k : Fin 2048), x (ix3 0 c k) = X (ix3 e c k))
    (hg0 : ∀ (i : Fin 256) (k : Fin 2048) (o : Fin 1536), o.val = 0 * 256 + i.val → g0 (ix3 0 i k) = GU (ix3 e o k))
    (hu0 : ∀ (i : Fin 256) (k : Fin 2048) (o : Fin 1536), o.val = 768 + 0 * 256 + i.val → u0 (ix3 0 i k) = GU (ix3 e o k))
    (hd0 : ∀ (h : Fin 2048) (i : Fin 256) (o : Fin 768), o.val = 0 * 256 + i.val → d0 (ix3 0 h i) = DN (ix3 e h o))
    (hg1 : ∀ (i : Fin 256) (k : Fin 2048) (o : Fin 1536), o.val = 1 * 256 + i.val → g1 (ix3 0 i k) = GU (ix3 e o k))
    (hu1 : ∀ (i : Fin 256) (k : Fin 2048) (o : Fin 1536), o.val = 768 + 1 * 256 + i.val → u1 (ix3 0 i k) = GU (ix3 e o k))
    (hd1 : ∀ (h : Fin 2048) (i : Fin 256) (o : Fin 768), o.val = 1 * 256 + i.val → d1 (ix3 0 h i) = DN (ix3 e h o))
    (hg2 : ∀ (i : Fin 256) (k : Fin 2048) (o : Fin 1536), o.val = 2 * 256 + i.val → g2 (ix3 0 i k) = GU (ix3 e o k))
    (hu2 : ∀ (i : Fin 256) (k : Fin 2048) (o : Fin 1536), o.val = 768 + 2 * 256 + i.val → u2 (ix3 0 i k) = GU (ix3 e o k))
    (hd2 : ∀ (h : Fin 2048) (i : Fin 256) (o : Fin 768), o.val = 2 * 256 + i.val → d2 (ix3 0 h i) = DN (ix3 e h o))
    (c : Fin 256) (h : Fin 2048) :
    Gen.k0_pay2 (F := Ideal) x g2 u2 d2 (Gen.k0_pay2 (F := Ideal) x g1 u1 d1 (Gen.k0_pay2 (F := Ideal) x g0 u0 d0 zero)) (ix2 c h)
      = Cert.Moe.expertOut X GU DN (ix3 e c h) := by
  rw [tile_apply X GU DN e 2 (by omega) x g2 u2 d2 _ hx hg2 hu2 hd2 c h,
    tile_apply X GU DN e 1 (by omega) x g1 u1 d1 _ hx hg1 hu1 hd1 c h,
    tile_apply X GU DN e 0 (by omega) x g0 u0 d0 _ hx hg0 hu0 hd0 c h, hz (ix2 c h)]
  exact tiles_sum X GU DN e c h

/-! ## The same over the blocks written as functions of the whole arrays -/

/-- The expert's 256 gathered rows as a block with a leading unit axis. -/
def xBlock (e : Fin 64) : Vec Ideal S1x256x2048 .f32 := fun y => X (ix3 e (y 1) (y 2))
/-- Tile n of the gate half: rows n·256 … of the stacked matrix. -/
def gateBlock (e : Fin 64) (n : Nat) (hn : n < 3) : Vec Ideal S1x256x2048 .f32 :=
  fun y => GU (ix3 e ⟨n * 256 + (y 1).val, by have h : (y 1).val < 256 := (y 1).isLt; omega⟩ (y 2))
/-- Tile n of the up half: rows 768 + n·256 … of the stacked matrix. -/
def upBlock (e : Fin 64) (n : Nat) (hn : n < 3) : Vec Ideal S1x256x2048 .f32 :=
  fun y => GU (ix3 e ⟨768 + n * 256 + (y 1).val, by have h : (y 1).val < 256 := (y 1).isLt; omega⟩ (y 2))
/-- Tile n of the down matrix: columns n·256 …. -/
def downBlock (e : Fin 64) (n : Nat) (hn : n < 3) : Vec Ideal S1x2048x256 .f32 :=
  fun y => DN (ix3 e (y 1) ⟨n * 256 + (y 2).val, by have h : (y 2).val < 256 := (y 2).isLt; omega⟩)

/-- One tile over those blocks. -/
theorem tile_blocks_apply (e : Fin 64) (n : Nat) (hn : n < 3) (acc : Vec Ideal S256x2048 .f32) (c : Fin 256) (h : Fin 2048) :
    Gen.k0_pay2 (F := Ideal) (xBlock X e) (gateBlock GU e n hn) (upBlock GU e n hn) (downBlock DN e n hn) acc (ix2 c h)
      = acc (ix2 c h) + tileSum X GU DN e c h n hn :=
  tile_apply X GU DN e n hn _ _ _ _ acc (fun _ _ => rfl)
    (fun i k o ho => congrArg (fun o => GU (ix3 e o k)) (Fin.ext ho.symm))
    (fun i k o ho => congrArg (fun o => GU (ix3 e o k)) (Fin.ext ho.symm))
    (fun h i o ho => congrArg (fun o => DN (ix3 e h o)) (Fin.ext ho.symm)) c h

/-- The three tiles over those blocks, from the zero block the body writes first. -/
theorem three_tiles_blocks (e : Fin 64) (c : Fin 256) (h : Fin 2048) :
    Gen.k0_pay2 (F := Ideal) (xBlock X e) (gateBlock GU e 2 (by omega)) (upBlock GU e 2 (by omega)) (downBlock DN e 2 (by omega))
      (Gen.k0_pay2 (F := Ideal) (xBlock X e) (gateBlock GU e 1 (by omega)) (upBlock GU e 1 (by omega)) (downBlock DN e 1 (by omega))
        (Gen.k0_pay2 (F := Ideal) (xBlock X e) (gateBlock GU e 0 (by omega)) (upBlock GU e 0 (by omega)) (downBlock DN e 0 (by omega))
          (Gen.k0_pay1 (F := Ideal)))) (ix2 c h)
      = Cert.Moe.expertOut X GU DN (ix3 e c h) := by
  rw [tile_blocks_apply, tile_blocks_apply, tile_blocks_apply, pay1_apply]
  exact tiles_sum X GU DN e c h

end Cert.KernelIdeal.BodyValue

end
-- ==== Proof.KiValue.lean ====
/-
  The region's result array on the extended reals: the specification's output of the arrays the region reads.

  Grid point t is expert t / 3, tile t mod 3. The four input blocks at t are the expert's 256 rows and tile t mod 3 of
  its gate rows, up rows and down columns, so the body's step at t adds to the accumulator, at (r, h), tile t mod 3's
  share  Σ_{i < 256} hidden (n·256 + i) · down (e, h, n·256 + i),  n = t mod 3, e = t / 3,  of the expert's output. A
  point of tile 0 starts from the zero block, a point of tile 1 or 2 from what the point before (same expert, tile one
  less) left: after tile 0 the accumulator holds the first share, after tile 1 the first two, and the step at tile 2
  makes all three, which is the whole contraction over the 768 intermediate coordinates. That value, a unit axis added,
  is what the point of tile 2 leaves in the output's staging buffer and the only thing written back; row block e of the
  result array is written by point 3 e + 2, and these blocks cover the array.
-/
import proofs.«175903_j26096221290603_1_alg».proof.Proof.KiFrame
import proofs.«175903_j26096221290603_1_alg».proof.Proof.KiPieces
import proofs.«175903_j26096221290603_1_alg».proof.Proof.KiBlocks
import proofs.«175903_j26096221290603_1_alg».proof.Proof.ThreeTiles
import Idealize.ShloMosaic.Lib.Pipeline.Value

set_option maxRecDepth 16384

noncomputable section

namespace Cert.KernelIdeal.Hand

open Cert.KernelIdeal Cert.KernelIdeal.Gen Cert.KernelIdeal.BodyValue
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The three arrays the region reads, as the specification's arguments. -/
abbrev arrX (c : Dev nD) : Cert.Moe.SX.Idx → EReal := V m c main_v10
abbrev arrGU (c : Dev nD) : Cert.Moe.SGU.Idx → EReal := V m c main_arg3
abbrev arrDN (c : Dev nD) : Cert.Moe.SDN.Idx → EReal := V m c main_arg4

/-- The body's step at point t adds tile t mod 3's share of expert t / 3. -/
theorem step_apply (c : Dev nD) (t : Fin cfg0.N) (e : Fin 64) (he : e.val = t.val / 3) (n : Nat) (hn : n < 3) (hnt : t.val % 3 = n)
    (acc : Vec Ideal S256x2048 .f32) (r : Fin 256) (h : Fin 2048) :
    k0_pay2 (F := Ideal) (iblk m c 0 t) (iblk m c 1 t) (iblk m c 2 t) (iblk m c 3 t) acc (ix2 r h)
      = acc (ix2 r h) + tileSum (arrX m c) (arrGU m c) (arrDN m c) e r h n hn :=
  tile_apply (arrX m c) (arrGU m c) (arrDN m c) e n hn (iblk m c 0 t) (iblk m c 1 t) (iblk m c 2 t) (iblk m c 3 t) acc
    (fun r k => iblk0_apply m c t e he r k)
    (fun i k o ho => iblk1_apply m c t e he i k o (by rw [ho, hnt]))
    (fun i k o ho => iblk2_apply m c t e he i k o (by rw [ho, hnt]))
    (fun h i o ho => iblk3_apply m c t e he h i o (by rw [ho, hnt])) r h

/-! ## What each point leaves, as the step of what it was given

Each is three equations in a row: the point's case of the recursion; the stores read back are the last covering
store; that store's payload is the step of the blocks. -/

theorem reset_a (c : Dev nD) (t : Fin cfg0.N) (h0 : t.val % 3 = 0) (hc1 : ¬condOut (grid0.coords t)) :
    (outsAt m c t.val t.isLt).2 = accReset (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t) := by
  rw [outsAt_reset m c t h0 hc1]
theorem reset_b (c : Dev nD) (t : Fin cfg0.N) (h0 : t.val % 3 = 0) (hc1 : ¬condOut (grid0.coords t)) :
    accReset (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)
      = View.canon (runReset (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)).1 :=
  View.read_writes_junk_eq_canon (Val := Elt Ideal) accV (runReset (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)).1
theorem reset_c (c : Dev nD) (t : Fin cfg0.N) (h0 : t.val % 3 = 0) (hc1 : ¬condOut (grid0.coords t)) :
    View.canon (runReset (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)).1
      = k0_pay2 (F := Ideal) (iblk m c 0 t) (iblk m c 1 t) (iblk m c 2 t) (iblk m c 3 t) (k0_pay1 (F := Ideal)) :=
  canonReset_eq (F := Ideal) c (grid0.coords t) (ms0 t) (hs0 t) (ms1 t) (hs1 t) (ms2 t) (hs2 t) (ms3 t) (hs3 t) (ms4 t) (hs4 t) accM (Memref.isWhole_whole _) ((hcondReset t).mpr h0) hc1 (iblk m c 0 t) (iblk m c 1 t) (iblk m c 2 t) (iblk m c 3 t)
/-- A point of tile 0 leaves in the accumulator the step from the zero block. -/
theorem acc_reset_eq (c : Dev nD) (t : Fin cfg0.N) (h0 : t.val % 3 = 0) :
    (outsAt m c t.val t.isLt).2 = k0_pay2 (F := Ideal) (iblk m c 0 t) (iblk m c 1 t) (iblk m c 2 t) (iblk m c 3 t) (k0_pay1 (F := Ideal)) :=
  have hc1 : ¬condOut (grid0.coords t) := fun hh => by have := (hcondOut t).mp hh; omega
  (reset_a m c t h0 hc1).trans ((reset_b m c t h0 hc1).trans (reset_c m c t h0 hc1))

theorem add_a (c : Dev nD) (t : Fin cfg0.N) (h0 : ¬t.val % 3 = 0) (h2 : ¬t.val % 3 = 2) :
    (outsAt m c t.val t.isLt).2 = accAdd (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2 := by
  rw [outsAt_add m c t h0 h2]
theorem add_b (c : Dev nD) (t : Fin cfg0.N) (h0 : ¬t.val % 3 = 0) (h2 : ¬t.val % 3 = 2) :
    accAdd (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2
      = View.canon (runAdd (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2).1 :=
  View.read_writes_junk_eq_canon (Val := Elt Ideal) accV (runAdd (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2).1
theorem add_c (c : Dev nD) (t : Fin cfg0.N) (h0 : ¬t.val % 3 = 0) (h2 : ¬t.val % 3 = 2) :
    View.canon (runAdd (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2).1
      = k0_pay2 (F := Ideal) (iblk m c 0 t) (iblk m c 1 t) (iblk m c 2 t) (iblk m c 3 t) (outsAt m c (t.val - 1) (Nat.lt_of_le_of_lt (Nat.sub_le _ _) t.isLt)).2 :=
  canonAdd_eq (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) (fun hh => h2 ((hcondOut t).mp hh)) (iblk m c 0 t) (iblk m c 1 t) (iblk m c 2 t) (iblk m c 3 t) (outsAt m c (t.val - 1) (Nat.lt_of_le_of_lt (Nat.sub_le _ _) t.isLt)).2
/-- A point of tile 1 leaves there the step from what the point before left. -/
theorem acc_add_eq (c : Dev nD) (t : Fin cfg0.N) (h0 : ¬t.val % 3 = 0) (h2 : ¬t.val % 3 = 2) :
    (outsAt m c t.val t.isLt).2 = k0_pay2 (F := Ideal) (iblk m c 0 t) (iblk m c 1 t) (iblk m c 2 t) (iblk m c 3 t) (outsAt m c (t.val - 1) (Nat.lt_of_le_of_lt (Nat.sub_le _ _) t.isLt)).2 :=
  (add_a m c t h0 h2).trans ((add_b m c t h0 h2).trans (add_c m c t h0 h2))

theorem last_a (c : Dev nD) (t : Fin cfg0.N) (h0 : ¬t.val % 3 = 0) (h2 : t.val % 3 = 2) :
    (outsAt m c t.val t.isLt).1 = outLast (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2 := by
  rw [outsAt_last m c t h0 h2]
theorem last_b (c : Dev nD) (t : Fin cfg0.N) (h0 : ¬t.val % 3 = 0) (h2 : t.val % 3 = 2) :
    outLast (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2
      = View.canon (runOut (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2).1 :=
  View.read_writes_junk_eq_canon (Val := Elt Ideal) outV (runOut (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2).1
theorem last_c (c : Dev nD) (t : Fin cfg0.N) (h0 : ¬t.val % 3 = 0) (h2 : t.val % 3 = 2) :
    View.canon (runOut (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2).1
      = k0_pay3 (F := Ideal) (k0_pay2 (F := Ideal) (iblk m c 0 t) (iblk m c 1 t) (iblk m c 2 t) (iblk m c 3 t) (outsAt m c (t.val - 1) (Nat.lt_of_le_of_lt (Nat.sub_le _ _) t.isLt)).2) :=
  canonOut_eq (F := Ideal) c (grid0.coords t) (ms0 t) (hs0 t) (ms1 t) (hs1 t) (ms2 t) (hs2 t) (ms3 t) (hs3 t) (ms4 t) (hs4 t) accM (Memref.isWhole_whole _) (fun hh => h0 ((hcondReset t).mp hh)) ((hcondOut t).mpr h2) (iblk m c 0 t) (iblk m c 1 t) (iblk m c 2 t) (iblk m c 3 t) (outsAt m c (t.val - 1) (Nat.lt_of_le_of_lt (Nat.sub_le _ _) t.isLt)).2
/-- A point of tile 2 leaves in the output's staging buffer that step's value, a unit axis added. -/
theorem out_last_eq (c : Dev nD) (t : Fin cfg0.N) (h0 : ¬t.val % 3 = 0) (h2 : t.val % 3 = 2) :
    (outsAt m c t.val t.isLt).1 = k0_pay3 (F := Ideal) (k0_pay2 (F := Ideal) (iblk m c 0 t) (iblk m c 1 t) (iblk m c 2 t) (iblk m c 3 t) (outsAt m c (t.val - 1) (Nat.lt_of_le_of_lt (Nat.sub_le _ _) t.isLt)).2) :=
  (last_a m c t h0 h2).trans ((last_b m c t h0 h2).trans (last_c m c t h0 h2))

/-! ## The accumulator tile by tile -/

/-- After a point of tile 0 the accumulator holds the first share. -/
theorem acc_tile0 (c : Dev nD) (t : Fin cfg0.N) (h0 : t.val % 3 = 0) (e : Fin 64) (he : e.val = t.val / 3) (r : Fin 256) (h : Fin 2048) :
    (outsAt m c t.val t.isLt).2 (ix2 r h) = 0 + tileSum (arrX m c) (arrGU m c) (arrDN m c) e r h 0 (by omega) := by
  rw [acc_reset_eq m c t h0, step_apply m c t e he 0 (by omega) h0 (k0_pay1 (F := Ideal)) r h, pay1_apply]

/-- After a point of tile 1 it holds the first two. -/
theorem acc_tile1 (c : Dev nD) (t : Fin cfg0.N) (h1 : t.val % 3 = 1) (e : Fin 64) (he : e.val = t.val / 3) (r : Fin 256) (h : Fin 2048) :
    (outsAt m c t.val t.isLt).2 (ix2 r h)
      = (0 + tileSum (arrX m c) (arrGU m c) (arrDN m c) e r h 0 (by omega)) + tileSum (arrX m c) (arrGU m c) (arrDN m c) e r h 1 (by omega) := by
  have hp : t.val - 1 < cfg0.N := Nat.lt_of_le_of_lt (Nat.sub_le _ _) t.isLt
  rw [acc_add_eq m c t (by omega) (by omega), step_apply m c t e he 1 (by omega) h1 (outsAt m c (t.val - 1) hp).2 r h]
  refine congrArg (· + tileSum (arrX m c) (arrGU m c) (arrDN m c) e r h 1 (by omega)) ?_
  exact acc_tile0 m c ⟨t.val - 1, hp⟩ (by show (t.val - 1) % 3 = 0; omega) e (by show e.val = (t.val - 1) / 3; omega) r h

/-- The step at a point of tile 2 makes all three: the expert's output. -/
theorem acc_tile2 (c : Dev nD) (t : Fin cfg0.N) (h2 : t.val % 3 = 2) (e : Fin 64) (he : e.val = t.val / 3) (r : Fin 256) (h : Fin 2048) :
    k0_pay2 (F := Ideal) (iblk m c 0 t) (iblk m c 1 t) (iblk m c 2 t) (iblk m c 3 t) (outsAt m c (t.val - 1) (Nat.lt_of_le_of_lt (Nat.sub_le _ _) t.isLt)).2 (ix2 r h)
      = Cert.Moe.expertOut (arrX m c) (arrGU m c) (arrDN m c) (ix3 e r h) := by
  have hp : t.val - 1 < cfg0.N := Nat.lt_of_le_of_lt (Nat.sub_le _ _) t.isLt
  rw [step_apply m c t e he 2 (by omega) h2 (outsAt m c (t.val - 1) hp).2 r h, ← tiles_sum (arrX m c) (arrGU m c) (arrDN m c) e r h]
  refine congrArg (· + tileSum (arrX m c) (arrGU m c) (arrDN m c) e r h 2 (by omega)) ?_
  exact acc_tile1 m c ⟨t.val - 1, hp⟩ (by show (t.val - 1) % 3 = 1; omega) e (by show e.val = (t.val - 1) / 3; omega) r h

/-- So after a point of tile 2 the output's staging buffer holds the expert's output rows. -/
theorem out_tile2 (c : Dev nD) (t : Fin cfg0.N) (h2 : t.val % 3 = 2) (e : Fin 64) (he : e.val = t.val / 3)
    (u : Fin 1) (r : Fin 256) (h : Fin 2048) :
    (outsAt m c t.val t.isLt).1 (ix3 u r h) = Cert.Moe.expertOut (arrX m c) (arrGU m c) (arrDN m c) (ix3 e r h) := by
  obtain rfl : u = 0 := Subsingleton.elim _ _
  rw [out_last_eq m c t (by omega) h2]
  exact (pay3_apply _ r h).trans (acc_tile2 m c t h2 e he r h)

/-! ## From the flushed blocks to the array -/

/-- The output window's block at point t sits at the rows of expert t / 3. -/
theorem emb4 (t : Fin cfg0.N) (e : Fin 64) (he : e.val = t.val / 3) (u : Fin 1) (r : Fin 256) (h : Fin 2048) :
    (((cfg0.win 4).blk t).view.emb (ix3 u r h) : S64x256x2048.Idx) = ix3 e r h := by
  obtain ⟨e0, e1, e2⟩ := idx4 t
  funext a; apply Fin.ext
  match a with
  | ⟨0, _⟩ => show win0_4.index t (0 : Fin 3) * 1 + 1 * u.val = e.val; omega
  | ⟨1, _⟩ => show win0_4.index t (1 : Fin 3) * 256 + 1 * r.val = r.val; omega
  | ⟨2, _⟩ => show win0_4.index t (2 : Fin 3) * 2048 + 1 * h.val = h.val; omega

/-- WHAT A POINT OF TILE 2 WRITES BACK is its block of the specification's output. -/
theorem flushed4_eq (c : Dev nD) (t : Fin cfg0.N) (hf : (cfg0.win 4).flush t = true) :
    (dats m 0 c).flushed 4 t = ((cfg0.win 4).blk t).view.read (Elt Ideal) (Cert.Moe.expertOut (arrX m c) (arrGU m c) (arrDN m c)) := by
  have h2 : t.val % 3 = 2 := (flush0_4 t).mp hf
  have hN : cfg0.N = 192 := N_0
  have ht : t.val < 192 := lt_of_lt_of_eq t.isLt hN
  show (cfg0.win 4).cut (grid0.coords t) ((dats m 0 c).after 4 t) = _
  rw [after4]
  funext j
  obtain ⟨u, r, h, rfl⟩ : ∃ (u : Fin 1) (r : Fin 256) (h : Fin 2048), j = ix3 u r h := ⟨j 0, j 1, j 2, eq_ix3 j⟩
  rw [View.read_apply]
  show (outsAt m c t.val t.isLt).1 (ix3 u r h) = Cert.Moe.expertOut (arrX m c) (arrGU m c) (arrDN m c) (((cfg0.win 4).blk t).view.emb (ix3 u r h))
  rw [emb4 t ⟨t.val / 3, by omega⟩ rfl u r h]
  exact out_tile2 m c t h2 ⟨t.val / 3, by omega⟩ rfl u r h

/-- An index of the output array is in point t's block iff each coordinate is in the block's range on its axis. -/
theorem mem_blk4 (t : Fin cfg0.N) (i : S64x256x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v19).slice (win0_4.rect t)).set ↔ _
  rw [View.set_slice_whole, Rect.mem_set_unit]
  exact Iff.rfl

/-- THE RESULT ARRAY of the region: row block e is written back by point 3 e + 2, so the array ends holding the
    specification's output of the three arrays as the region found them. -/
theorem final_out (c : Dev nD) :
    (dats m 0 c).arrAt 4 cfg0.N = Cert.Moe.expertOut (arrX m c) (arrGU m c) (arrDN m c) :=
  (dats m 0 c).arrAt_eq_of_cover 4 (Cert.Moe.expertOut (arrX m c) (arrGU m c) (arrDN m c)) (flushed4_eq m c) fun i => by
    have hN : cfg0.N = 192 := N_0
    have hi0 : (i 0 : Nat) < 64 := (i 0).isLt
    have hi1 : (i 1 : Nat) < 256 := (i 1).isLt
    have hi2 : (i 2 : Nat) < 2048 := (i 2).isLt
    obtain ⟨t, ht⟩ : ∃ t : Fin cfg0.N, t.val = 3 * (i 0 : Nat) + 2 := ⟨⟨3 * (i 0 : Nat) + 2, by omega⟩, rfl⟩
    obtain ⟨e0, e1, e2⟩ := idx4 t
    refine ⟨t, (flush0_4 t).mpr (by omega), ?_⟩
    rw [mem_blk4]
    intro a
    match a with
    | ⟨0, _⟩ => show win0_4.index t (0 : Fin 3) * 1 ≤ (i 0 : Nat) ∧ (i 0 : Nat) < win0_4.index t (0 : Fin 3) * 1 + 1; omega
    | ⟨1, _⟩ => show win0_4.index t (1 : Fin 3) * 256 ≤ (i 1 : Nat) ∧ (i 1 : Nat) < win0_4.index t (1 : Fin 3) * 256 + 256; omega
    | ⟨2, _⟩ => show win0_4.index t (2 : Fin 3) * 2048 ≤ (i 2 : Nat) ∧ (i 2 : Nat) < win0_4.index t (2 : Fin 3) * 2048 + 2048; omega

end Cert.KernelIdeal.Hand

end
-- ==== Proof.KiResult.lean ====
/-
  What the idealized kernel's run leaves, read as mathematics: the result array is the scatter-add tail applied to the
  token table, the gathered routing weights and the experts' outputs; every argument array is as it was.
-/
import proofs.«175903_j26096221290603_1_alg».proof.Proof.KiHostEnd
import proofs.«175903_j26096221290603_1_alg».proof.Proof.KiValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.HostValue

theorem v31_rest : main_v31 ∈ restS :=
  Finset.mem_sdiff.mpr ⟨Finset.mem_filter.mpr ⟨Finset.mem_univ _, by decide⟩, by decide⟩
theorem arg0_rest : main_arg0 ∈ restS :=
  Finset.mem_sdiff.mpr ⟨Finset.mem_filter.mpr ⟨Finset.mem_univ _, by decide⟩, by decide⟩
theorem arg1_rest : main_arg1 ∈ restS :=
  Finset.mem_sdiff.mpr ⟨Finset.mem_filter.mpr ⟨Finset.mem_univ _, by decide⟩, by decide⟩
theorem arg2_rest : main_arg2 ∈ restS :=
  Finset.mem_sdiff.mpr ⟨Finset.mem_filter.mpr ⟨Finset.mem_univ _, by decide⟩, by decide⟩

/-- Every argument array ends as it began: three bypass the region and no host operation writes them; the two
    projection arrays are read by the region's input windows, which are never written back. -/
theorem args_kept (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 arg0_rest).trans (Wend_arg0 m c),
   ((h c).2 main_arg1 arg1_rest).trans (Wend_arg1 m c),
   ((h c).2 main_arg2 arg2_rest).trans (Wend_arg2 m c),
   ((h c).1 1).trans (((dats m 0 c).arrAt_in 1 rfl _).trans ((A_eq m c 1).trans (V_arg3 m c))),
   ((h c).1 3).trans (((dats m 0 c).arrAt_in 3 rfl _).trans ((A_eq m c 3).trans (V_arg4 m c)))⟩

/-- At the exact instance the result array is the weighted scatter-add of the experts' outputs. -/
theorem result_eq (m : (ℓ : Loc nD τ sig) → Buf (Elt Ideal) ℓ) (r : PUnit × MemSt nD τ sig (Elt Ideal)) (h : QC m r) (c : Dev nD) :
    r.2.mem ((c.tc : Thread nD τ).loc main_v31)
      = kerTail (F := Ideal) (kerTok (m ((c.tc : Thread nD τ).loc main_arg1)))
          (kerW (F := Ideal) (m ((c.tc : Thread nD τ).loc main_arg1)) (m ((c.tc : Thread nD τ).loc main_arg2)))
          (Cert.Moe.expertOut (kerXs (F := Ideal) (m ((c.tc : Thread nD τ).loc main_arg0)) (m ((c.tc : Thread nD τ).loc main_arg1)))
            (m ((c.tc : Thread nD τ).loc main_arg3)) (m ((c.tc : Thread nD τ).loc main_arg4))) := by
  rw [(h c).2 main_v31 v31_rest, Wend_out, final_out m c, V_tok, V_w]
  unfold arrX arrGU arrDN
  rw [V_xs, V_arg3, V_arg4]

end Cert.KernelIdeal.Hand

end
-- ==== Proof.RefValue.lean ====
/-
  The expert computation of the reference, read index by index on the extended reals. A contraction of
  [G, m, k] against [G, n, k] over the last axis of both, batched over the first, is at (g, a, b) the sum over
  c of A (g, a, c) · B (g, b, c); a slice reads its operand at the offset index; the gate is
  x · 1 / (1 + exp (-x)), the logistic function by its definition. Composed, the reference's stage between the
  gather and the scatter is the specification's expert output.
-/
import proofs.«175903_j26096221290603_1_alg».proof.Proof.RefRun
import proofs.«175903_j26096221290603_1_alg».proof.Proof.MoeSpec
import Idealize.ShloMosaic.PureOps.Ideal.Laws
import Idealize.ShloMosaic.Lib.ValueIdx

noncomputable section

namespace Cert.ReferenceIdeal.RefRun

open Cert.ReferenceIdeal Cert.ReferenceIdeal.Gen Idealize.ShloMosaic Idealize.ShloMosaic.ValueIdx

/-- The pattern of `1.0` denotes `1`. -/
theorem ofBits_one : Ideal.ofBits .f32 0x3F800000#32 = 1 := by
  simp [Ideal.ofBits, Ideal.ieee, -EReal.coe_mul]; norm_num

/-- A stack of matrices against a stack of transposed matrices — the contraction over [G, m, k] and [G, n, k] with
    batch axes 0 and 0 and contracting axes 2 and 2 — at an index is the sum over the contracted coordinate of the
    products of the two members' entries. -/
theorem dotGeneral_bt_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The stacked projections at (e, c, o): row c of expert e against row o of its stacked matrix. -/
theorem refGU_apply (xs : FVec Ideal S64x256x2048 .f32) (a3 : FVec Ideal S64x1536x2048 .f32)
    (e : Fin 64) (c : Fin 256) (o : Fin 1536) : refGU xs a3 (ix3 e c o) = Cert.Moe.proj xs a3 e c o :=
  dotGeneral_bt_apply dot_S64x256x2048_S64x1536x2048_S64x256x1536_2_2_1_1_0_0_wf none xs a3 e c o

/-- The first half of the last axis. -/
theorem slice_lo_apply (g : FVec Ideal S64x256x1536 .f32) (e : Fin 64) (c : Fin 256) (i : Fin 768) :
    extractStridedSlice S64x256x768 ![0, 0, 0] g slices_S64x256x1536_S64x256x768_0_0_0 (ix3 e c i)
      = g (ix3 e c ⟨i.val, by omega⟩) := by
  show g _ = g _
  congr 1
  funext ax; apply Fin.ext
  match ax with
  | ⟨0, _⟩ => exact Nat.zero_add _
  | ⟨1, _⟩ => exact Nat.zero_add _
  | ⟨2, _⟩ => exact Nat.zero_add _

/-- The second half of the last axis. -/
theorem slice_hi_apply (g : FVec Ideal S64x256x1536 .f32) (e : Fin 64) (c : Fin 256) (i : Fin 768) :
    extractStridedSlice S64x256x768 ![0, 0, 768] g slices_S64x256x1536_S64x256x768_0_0_768 (ix3 e c i)
      = g (ix3 e c ⟨768 + i.val, by omega⟩) := by
  show g _ = g _
  congr 1
  funext ax; apply Fin.ext
  match ax with
  | ⟨0, _⟩ => exact Nat.zero_add _
  | ⟨1, _⟩ => exact Nat.zero_add _
  | ⟨2, _⟩ => rfl

/-- The gate at an index: the entry times the logistic function of the entry. -/
theorem silu_apply (x : FVec Ideal S64x256x768 .f32) (i : S64x256x768.Idx) : silu x i = x i * Ideal.logistic (x i) := by
  show x i * Ideal.div (Ideal.ofBits .f32 0x3F800000#32) (Ideal.ofBits .f32 0x3F800000#32 + Ideal.exp (-(x i))) = _
  rw [ofBits_one]; rfl

/-- The reference's stage between the gather and the scatter is the specification's expert output. -/
theorem refY_eq (xs : FVec Ideal S64x256x2048 .f32) (a3 : FVec Ideal S64x1536x2048 .f32) (a4 : FVec Ideal S64x2048x768 .f32) :
    refY xs a3 a4 = Cert.Moe.expertOut xs a3 a4 := by
  funext j
  obtain ⟨e, c, h, rfl⟩ : ∃ (e : Fin 64) (c : Fin 256) (h : Fin 2048), j = ix3 e c h := ⟨j 0, j 1, j 2, eq_ix3 j⟩
  unfold refY
  refine (dotGeneral_bt_apply dot_S64x256x768_S64x2048x768_S64x256x2048_2_2_1_1_0_0_wf none _ a4 e c h).trans ?_
  show _ = ∑ i : Fin 768, Cert.Moe.hidden xs a3 e c i * a4 (ix3 e h i)
  refine Finset.sum_congr rfl fun i _ => ?_
  congr 1
  show silu _ (ix3 e c i) * extractStridedSlice S64x256x768 ![0, 0, 768] (refGU xs a3) slices_S64x256x1536_S64x256x768_0_0_768 (ix3 e c i) = _
  rw [silu_apply, slice_lo_apply, slice_hi_apply, refGU_apply, refGU_apply]
  rfl

end Cert.ReferenceIdeal.RefRun

end
-- ==== Proof.lean ====
/-
  A mixture-of-experts layer with balanced routing, as a Pallas kernel and as its jnp reference, are the same function on
  the extended reals.

  Both programs sort the 16384 (token, slot) pairs by expert (a stable argsort of the flattened index array), gather
  the tokens' rows in that order into 64 groups of 256 rows, run every group through its expert, weight the rows by
  the gathered routing weights and scatter-add them back to the tokens. They differ only in the middle. The reference
  computes, per expert e, row c and hidden coordinate h,
      out(e,c,h) = Σ_{i<768} (g_i · σ(g_i) · u_i) · down(e,h,i),   g_i = Σ_k x(e,c,k)·W(e,i,k),   u_i = Σ_k x(e,c,k)·W(e,768+i,k),
  with two batched contractions, two slices and x·(1/(1+e^{-x})) spelt out. The kernel walks a grid of 64 experts × 3
  tiles of the 768 intermediate coordinates: at each tile it forms the 256 gate and up products of the tile, the gated
  activation (the logistic function is by definition 1/(1+e^{-x}) at the exact instance; the conversions to bfloat16
  are the identity there), multiplies by the tile's 256 columns of the down projection and adds the result to an
  accumulator that is zeroed at tile 0 and copied out at tile 2. So its output is ((0 + T_0) + T_1) + T_2 with T_n the
  sum over the n-th block of 256 intermediate coordinates — the same finite sum regrouped, equal in the additive
  commutative monoid of the extended reals with no finiteness assumption. The precondition is never opened.

  The frames: each program runs to the end, faults nowhere and leaves its five arguments as they were. For the two kernel
  programs this is the pipeline library's launch theorem for one region between two stretches of host operations, the
  stacked gate/up projection handed to the region through two windows, each holding half of its share; the body's
  obligation is proved per control case (tile 0 / tile 1 / tile 2). For the reference it is the run of its host
  operations.
-/
import proofs.«175903_j26096221290603_1_alg».proof.Defs
import proofs.«175903_j26096221290603_1_alg».proof.Proof.Gen.Kernel
import proofs.«175903_j26096221290603_1_alg».proof.Proof.Gen.KernelIdeal
import proofs.«175903_j26096221290603_1_alg».proof.Proof.Gen.ReferenceIdeal
import proofs.«175903_j26096221290603_1_alg».proof.Proof.Gen.Pre_finite_inputs
import proofs.«175903_j26096221290603_1_alg».proof.Proof.KbResult
import proofs.«175903_j26096221290603_1_alg».proof.Proof.KiResult
import proofs.«175903_j26096221290603_1_alg».proof.Proof.RefValue

noncomputable section

namespace Cert.Proof

open Idealize.ShloMosaic Idealize.ShloMosaic.TcCoe Idealize.SL.Sem
open Cert.KernelIdeal.HostValue Cert.ReferenceIdeal.RefRun

/-- The word-level kernel runs and keeps its arguments. -/
theorem frame_k : Cert.frame_Kernel := fun m ρ _ =>
  (θ_run Cert.Kernel.defs _ _).mono (fun r h c => Cert.Kernel.Hand.args_kept m r h c) (Cert.Kernel.Hand.run_main (F := Bits) m ρ)

/-- The idealized kernel runs and keeps its arguments. -/
theorem frame_ki : Cert.frame_KernelIdeal := fun m ρ _ =>
  (θ_run Cert.KernelIdeal.defs _ _).mono (fun r h c => Cert.KernelIdeal.Hand.args_kept m r h c) (Cert.KernelIdeal.Hand.run_main (F := Ideal) m ρ)

/-- The idealized reference runs and keeps its arguments. -/
theorem frame_ri : Cert.frame_ReferenceIdeal := Cert.ReferenceIdeal.RefRun.frame

/-- The ideal pass rewrote nothing: there is nothing to preserve. -/
theorem preserves : Cert.preserves_Kernel_KernelIdeal := trivial

/-- From memories agreeing on the arguments both idealized programs end with the same result array: the weighted
    scatter-add of the experts' outputs, the kernel's three accumulated tiles being the reference's whole contraction. -/
theorem algebraic : Cert.algebraic_KernelIdeal_ReferenceIdeal := by
  intro m ρ m' ρ' _ hagree
  refine ⟨fun c => kerTail (F := Ideal) (kerTok (m ((c.tc : Thread Cert.KernelIdeal.nD Cert.KernelIdeal.τ).loc Cert.KernelIdeal.main_arg1)))
      (kerW (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.Moe.expertOut (kerXs (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · exact (θ_run Cert.KernelIdeal.defs _ _).mono
      (fun r h c => ⟨Cert.KernelIdeal.Hand.result_eq m r h c, Cert.KernelIdeal.Hand.args_kept m r h c⟩)
      (Cert.KernelIdeal.Hand.run_main (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]
    unfold refResult
    beta_reduce
    rw [refY_eq, kerTail_eq, kerTok_eq, kerW_eq, kerXs_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
